-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S131072x1 : Shape := ⟨2, ![131072, 1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S256x64 .f32) (main_arg8 : FVec F S64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64x256 .f32) (main_arg5 : FVec F S64x256 .f32) (main_arg6 : FVec F S256 .f32) (main_arg7 : FVec F S256x64 .f32) (main_arg8 : FVec F S64 .f32) (main_v13 : IVec S_ 1) (main_v16 : IVec S131072x64 1) : IVec S_ 1 :=
  let main_c_5 : IVec S_ 1 := constantI S_ 1 1#1
  let main_v17 : IVec S_ 1 := (fun x v => Host.reduce IntOp.andi x v reducesTo_S131072x64_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S131072x64 .f32) (main_arg1 : FVec F S131072x64 .f32) (main_arg2 : FVec F S131072x1 .f32) (main_arg3 : FVec F S131072x64 .f32) (main_arg4 : FVec F S64x256 .f32) (main_arg5 : FVec F S64x256 .f32) (main_arg6 : FVec F S256 .f32) (main_arg7 : FVec F S256x64 .f32) (main_arg8 : FVec F S64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S131072x1 .f32 := Host.absf main_arg2
  let main_cst_2 : FVec F S_ .f32 := constant S_ .f32 0x7F800000#32
  let main_v10 : FVec F S131072x1 .f32 := broadcastInDim S131072x1 ![] bcast_S_S131072x1 main_cst_2
  let main_v11 : IVec S131072x1 1 := cmpf .olt main_v9 main_v10
  let main_c_3 : IVec S_ 1 := constantI S_ 1 1#1
  let main_v12 : IVec S_ 1 := (fun x v => Host.reduce IntOp.andi x v reducesTo_S131072x1_S_d0_1 h_S_) main_v11 main_c_3
  let main_v13 : IVec S_ 1 := andi main_v8 main_v12
  let main_v14 : FVec F S131072x64 .f32 := Host.absf main_arg3
  let main_cst_4 : FVec F S_ .f32 := constant S_ .f32 0x7F800000#32
  let main_v15 : FVec F S131072x64 .f32 := broadcastInDim S131072x64 ![] bcast_S_S131072x64 main_cst_4
  let main_v16 : IVec S131072x64 1 := cmpf .olt main_v14 main_v15
  fn_part1 (F := F) main_arg4 main_arg5 main_arg6 main_arg7 main_arg8 main_v13 main_v16
-- ==== Kernel.lean ====
abbrev S131072x64 : Shape := ⟨2, ![131072, 64]⟩
abbrev S131072x1 : Shape := ⟨2, ![131072, 1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S256x256 : Shape := ⟨2, ![256, 256]⟩
abbrev S2048x64 : Shape := ⟨2, ![2048, 64]⟩
abbrev S2048x1 : Shape := ⟨2, ![2048, 1]⟩
abbrev S2048x128 : Shape := ⟨2, ![2048, 128]⟩
abbrev S2048x256 : Shape := ⟨2, ![2048, 256]⟩
abbrev S1x256 : Shape := ⟨2, ![1, 256]⟩
abbrev S1x64 : Shape := ⟨2, ![1, 64]⟩
abbrev S2048 : Shape := ⟨1, ![2048]⟩

abbrev nBuf : Space → Nat
  | .hbm => 14
  | .vmem => 18
  | .smem => 0
  | _ => 0

abbrev bufTy : (tb : Table) → Fin (tcTables nBuf tb) → BufTy
  | .hbm, ⟨0, _⟩ => ⟨S131072x64, .f32⟩
  | .hbm, ⟨1, _⟩ => ⟨S131072x64, .f32⟩
  | .hbm, ⟨2, _⟩ => ⟨S131072x1, .f32⟩
  | .hbm, ⟨3, _⟩ => ⟨S131072x64, .f32⟩
  | .hbm, ⟨4, _⟩ => ⟨S64x256, .f32⟩
  | .hbm, ⟨5, _⟩ => ⟨S64x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S128x256, .f32⟩
  | .hbm, ⟨10, _⟩ => ⟨S256x256, .f32⟩
  | .hbm, ⟨11, _⟩ => ⟨S256x256, .f32⟩
  | .hbm, ⟨12, _⟩ => ⟨S131072x64, .f32⟩
  | .hbm, ⟨13, _⟩ => ⟨S131072x1, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x1, .f32⟩
  | .local _ .vmem, ⟨7, _⟩ => ⟨S2048x1, .f32⟩
  | .local _ .vmem, ⟨8, _⟩ => ⟨S128x256, .f32⟩
  | .local _ .vmem, ⟨9, _⟩ => ⟨S64x256, .f32⟩
  | .local _ .vmem, ⟨10, _⟩ => ⟨S256, .f32⟩
  | .local _ .vmem, ⟨11, _⟩ => ⟨S256x64, .f32⟩
  | .local _ .vmem, ⟨12, _⟩ => ⟨S64, .f32⟩
  | .local _ .vmem, ⟨13, _⟩ => ⟨S256x256, .f32⟩
  | .local _ .vmem, ⟨14, _⟩ => ⟨S2048x64, .f32⟩
  | .local _ .vmem, ⟨15, _⟩ => ⟨S2048x64, .f32⟩
  | .local _ .vmem, ⟨16, _⟩ => ⟨S2048x1, .f32⟩
  | .local _ .vmem, ⟨17, _⟩ => ⟨S2048x1, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S64x256_S64x256_S128x256_d0 : Shape.Concatenates [S64x256, S64x256] S128x256 0
  transposes_S256x256_S256x256_1_0 : S256x256.Transposes [1, 0] S256x256
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  concatenates_S2048x64_S2048x64_S2048x128_d1 : Shape.Concatenates [S2048x64, S2048x64] S2048x128 1
  shapeCasts_S256_S1x256 : S256.ShapeCasts S1x256
  broadcasts_S1x256_S2048x256 : S1x256.Broadcasts S2048x256
  shapeCasts_S64_S1x64 : S64.ShapeCasts S1x64
  broadcasts_S1x64_S2048x64 : S1x64.Broadcasts S2048x64
  reduces_S2048x256_S2048 : S2048x256.Reduces [1] S2048
  shapeCasts_S2048_S2048x1 : S2048.ShapeCasts S2048x1
  dot_S256x64_S64x256_S256x256_1_0_0_1_n_n_wf : DotDims.WF S256x64 S64x256 S256x256 [1] [0] [0] [1] [] []
  dot_S2048x128_S128x256_S2048x256_1_0_0_1_n_n_wf : DotDims.WF S2048x128 S128x256 S2048x256 [1] [0] [0] [1] [] []
  dot_S2048x256_S256x64_S2048x64_1_0_0_1_n_n_wf : DotDims.WF S2048x256 S256x64 S2048x64 [1] [0] [0] [1] [] []
  dot_S2048x64_S64x256_S2048x256_1_0_0_1_n_n_wf : DotDims.WF S2048x64 S64x256 S2048x256 [1] [0] [0] [1] [] []
  dot_S2048x64_S256x64_S2048x256_1_1_0_0_n_n_wf : DotDims.WF S2048x64 S256x64 S2048x256 [1] [1] [0] [0] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S131072x64.size a
  hwx0_1 : ∀ i : grid0.Coords, EltTy.bits .f32 = 32 ∨ (Rect.block (s := S131072x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S131072x64.size a
  hwx0_2 : ∀ i : grid0.Coords, EltTy.bits .f32 = 32 ∨ (Rect.block (s := S131072x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x64.size a ≤ S131072x64.size a
  hwx0_10 : ∀ i : grid0.Coords, EltTy.bits .f32 = 32 ∨ (Rect.block (s := S131072x64) S2048x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S131072x1.size a
  hwx0_11 : ∀ i : grid0.Coords, EltTy.bits .f32 = 32 ∨ (Rect.block (s := S131072x1) S2048x1.size (cc0_transform_11 i) (hinb0_11 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x64_S256x64_S2048x256_1_1_0_0_n_n : DotDims S2048x64 S256x64 S2048x256 where
  lhsContracting := [1]
  rhsContracting := [1]
  lhsNonContracting := [0]
  rhsNonContracting := [0]
  lhsBatch := []
  rhsBatch := []
  wf := dot_S2048x64_S256x64_S2048x256_1_1_0_0_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S2048x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x64 : Shape := ⟨2, ![131072, 64]⟩
abbrev S131072x1 : Shape := ⟨2, ![131072, 1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S131072x256 : Shape := ⟨2, ![131072, 256]⟩
abbrev S1x256 : Shape := ⟨2, ![1, 256]⟩
abbrev S_ : Shape := ⟨0, ![]⟩
abbrev S1x64 : Shape := ⟨2, ![1, 64]⟩
abbrev S131072 : Shape := ⟨1, ![131072]⟩

abbrev nBuf : Space → Nat
  | .hbm => 254
  | .vmem => 0
  | .smem => 0
  | _ => 0

abbrev hbmTy0_0 (i : Nat) : BufTy := match i % 128 with
  | 0 => ⟨S131072x64, .f32⟩
  | 1 => ⟨S131072x64, .f32⟩
  | 2 => ⟨S131072x1, .f32⟩
  | 3 => ⟨S131072x64, .f32⟩
  | 4 => ⟨S64x256, .f32⟩
  | 5 => ⟨S64x256, .f32⟩
  | 6 => ⟨S256, .f32⟩
  | 7 => ⟨S256x64, .f32⟩
  | 8 => ⟨S64, .f32⟩
  | 9 => ⟨S131072x256, .f32⟩
  | 10 => ⟨S131072x256, .f32⟩
  | 11 => ⟨S131072x256, .f32⟩
  | 12 => ⟨S1x256, .f32⟩
  | 13 => ⟨S131072x256, .f32⟩
  | 14 => ⟨S131072x256, .f32⟩
  | 15 => ⟨S_, .f32⟩
  | 16 => ⟨S131072x256, .f32⟩
  | 17 => ⟨S131072x256, .i1⟩
  | 18 => ⟨S_, .f32⟩
  | 19 => ⟨S131072x256, .f32⟩
  | 20 => ⟨S131072x256, .i1⟩
  | 21 => ⟨S_, .f32⟩
  | 22 => ⟨S_, .f32⟩
  | 23 => ⟨S131072x256, .f32⟩
  | 24 => ⟨S131072x256, .f32⟩
  | 25 => ⟨S_, .f32⟩
  | 26 => ⟨S131072x256, .f32⟩
  | 27 => ⟨S131072x256, .f32⟩
  | 28 => ⟨S_, .f32⟩
  | 29 => ⟨S131072x256, .f32⟩
  | 30 => ⟨S131072x256, .f32⟩
  | 31 => ⟨S_, .f32⟩
  | 32 => ⟨S131072x256, .f32⟩
  | 33 => ⟨S131072x256, .f32⟩
  | 34 => ⟨S131072x256, .f32⟩
  | 35 => ⟨S131072x64, .f32⟩
  | 36 => ⟨S1x64, .f32⟩
  | 37 => ⟨S131072x64, .f32⟩
  | 38 => ⟨S131072x64, .f32⟩
  | 39 => ⟨S_, .f32⟩
  | 40 => ⟨S131072, .f32⟩
  | 41 => ⟨S131072x256, .f32⟩
  | 42 => ⟨S_, .f32⟩
  | 43 => ⟨S131072x256, .f32⟩
  | 44 => ⟨S131072x256, .f32⟩
  | 45 => ⟨S131072x256, .f32⟩
  | 46 => ⟨S_, .f32⟩
  | 47 => ⟨S131072x256, .f32⟩
  | 48 => ⟨S131072x256, .f32⟩
  | 49 => ⟨S131072x256, .f32⟩
  | 50 => ⟨S_, .f32⟩
  | 51 => ⟨S131072x256, .f32⟩
  | 52 => ⟨S131072x256, .f32⟩
  | 53 => ⟨S131072x256, .f32⟩
  | 54 => ⟨S131072x64, .f32⟩
  | 55 => ⟨S131072x64, .f32⟩
  | 56 => ⟨S_, .f32⟩
  | 57 => ⟨S131072, .f32⟩
  | 58 => ⟨S_, .f32⟩
  | 59 => ⟨S131072, .f32⟩
  | 60 => ⟨S131072, .f32⟩
  | 61 => ⟨S131072, .f32⟩
  | 62 => ⟨S131072x256, .f32⟩
  | 63 => ⟨S_, .f32⟩
  | 64 => ⟨S131072x256, .f32⟩
  | 65 => ⟨S131072x256, .f32⟩
  | 66 => ⟨S131072x256, .f32⟩
  | 67 => ⟨S_, .f32⟩
  | 68 => ⟨S131072x256, .f32⟩
  | 69 => ⟨S131072x256, .f32⟩
  | 70 => ⟨S131072x256, .f32⟩
  | 71 => ⟨S_, .f32⟩
  | 72 => ⟨S131072x256, .f32⟩
  | 73 => ⟨S131072x256, .f32⟩
  | 74 => ⟨S131072x256, .f32⟩
  | 75 => ⟨S131072x64, .f32⟩
  | 76 => ⟨S131072x64, .f32⟩
  | 77 => ⟨S_, .f32⟩
  | 78 => ⟨S131072, .f32⟩
  | 79 => ⟨S_, .f32⟩
  | 80 => ⟨S131072, .f32⟩
  | 81 => ⟨S131072, .f32⟩
  | 82 => ⟨S131072, .f32⟩
  | 83 => ⟨S131072x256, .f32⟩
  | 84 => ⟨S_, .f32⟩
  | 85 => ⟨S131072x256, .f32⟩
  | 86 => ⟨S131072x256, .f32⟩
  | 87 => ⟨S131072x256, .f32⟩
  | 88 => ⟨S_, .f32⟩
  | 89 => ⟨S131072x256, .f32⟩
  | 90 => ⟨S131072x256, .f32⟩
  | 91 => ⟨S131072x256, .f32⟩
  | 92 => ⟨S_, .f32⟩
  | 93 => ⟨S131072x256, .f32⟩
  | 94 => ⟨S131072x256, .f32⟩
  | 95 => ⟨S131072x256, .f32⟩
  | 96 => ⟨S131072x64, .f32⟩
  | 97 => ⟨S131072x64, .f32⟩
  | 98 => ⟨S_, .f32⟩
  | 99 => ⟨S131072, .f32⟩
  | 100 => ⟨S_, .f32⟩
  | 101 => ⟨S131072, .f32⟩
  | 102 => ⟨S131072, .f32⟩
  | 103 => ⟨S131072, .f32⟩
  | 104 => ⟨S131072x256, .f32⟩
  | 105 => ⟨S_, .f32⟩
  | 106 => ⟨S131072x256, .f32⟩
  | 107 => ⟨S131072x256, .f32⟩
  | 108 => ⟨S131072x256, .f32⟩
  | 109 => ⟨S_, .f32⟩
  | 110 => ⟨S131072x256, .f32⟩
  | 111 => ⟨S131072x256, .f32⟩
  | 112 => ⟨S131072x256, .f32⟩
  | 113 => ⟨S_, .f32⟩
  | 114 => ⟨S131072x256, .f32⟩
  | 115 => ⟨S131072x256, .f32⟩
  | 116 => ⟨S131072x256, .f32⟩
  | 117 => ⟨S131072x64, .f32⟩
  | 118 => ⟨S131072x64, .f32⟩
  | 119 => ⟨S_, .f32⟩
  | 120 => ⟨S131072, .f32⟩
  | 121 => ⟨S_, .f32⟩
  | 122 => ⟨S131072, .f32⟩
  | 123 => ⟨S131072, .f32⟩
  | 124 => ⟨S131072, .f32⟩
  | 125 => ⟨S131072x256, .f32⟩
  | 126 => ⟨S_, .f32⟩
  | 127 => ⟨S131072x256, .f32⟩
  | _ => ⟨S131072x64, .f32⟩

abbrev hbmTy0_1 (i : Nat) : BufTy := match i % 128 with
  | 0 => ⟨S131072x256, .f32⟩
  | 1 => ⟨S131072x256, .f32⟩
  | 2 => ⟨S_, .f32⟩
  | 3 => ⟨S131072x256, .f32⟩
  | 4 => ⟨S131072x256, .f32⟩
  | 5 => ⟨S131072x256, .f32⟩
  | 6 => ⟨S_, .f32⟩
  | 7 => ⟨S131072x256, .f32⟩
  | 8 => ⟨S131072x256, .f32⟩
  | 9 => ⟨S131072x256, .f32⟩
  | 10 => ⟨S131072x64, .f32⟩
  | 11 => ⟨S131072x64, .f32⟩
  | 12 => ⟨S_, .f32⟩
  | 13 => ⟨S131072, .f32⟩
  | 14 => ⟨S_, .f32⟩
  | 15 => ⟨S131072, .f32⟩
  | 16 => ⟨S131072, .f32⟩
  | 17 => ⟨S131072, .f32⟩
  | 18 => ⟨S131072x256, .f32⟩
  | 19 => ⟨S_, .f32⟩
  | 20 => ⟨S131072x256, .f32⟩
  | 21 => ⟨S131072x256, .f32⟩
  | 22 => ⟨S131072x256, .f32⟩
  | 23 => ⟨S_, .f32⟩
  | 24 => ⟨S131072x256, .f32⟩
  | 25 => ⟨S131072x256, .f32⟩
  | 26 => ⟨S131072x256, .f32⟩
  | 27 => ⟨S_, .f32⟩
  | 28 => ⟨S131072x256, .f32⟩
  | 29 => ⟨S131072x256, .f32⟩
  | 30 => ⟨S131072x256, .f32⟩
  | 31 => ⟨S131072x64, .f32⟩
  | 32 => ⟨S131072x64, .f32⟩
  | 33 => ⟨S_, .f32⟩
  | 34 => ⟨S131072, .f32⟩
  | 35 => ⟨S_, .f32⟩
  | 36 => ⟨S131072, .f32⟩
  | 37 => ⟨S131072, .f32⟩
  | 38 => ⟨S131072, .f32⟩
  | 39 => ⟨S131072x256, .f32⟩
  | 40 => ⟨S_, .f32⟩
  | 41 => ⟨S131072x256, .f32⟩
  | 42 => ⟨S131072x256, .f32⟩
  | 43 => ⟨S131072x256, .f32⟩
  | 44 => ⟨S_, .f32⟩
  | 45 => ⟨S131072x256, .f32⟩
  | 46 => ⟨S131072x256, .f32⟩
  | 47 => ⟨S131072x256, .f32⟩
  | 48 => ⟨S_, .f32⟩
  | 49 => ⟨S131072x256, .f32⟩
  | 50 => ⟨S131072x256, .f32⟩
  | 51 => ⟨S131072x256, .f32⟩
  | 52 => ⟨S131072x64, .f32⟩
  | 53 => ⟨S131072x64, .f32⟩
  | 54 => ⟨S_, .f32⟩
  | 55 => ⟨S131072, .f32⟩
  | 56 => ⟨S_, .f32⟩
  | 57 => ⟨S131072, .f32⟩
  | 58 => ⟨S131072, .f32⟩
  | 59 => ⟨S131072, .f32⟩
  | 60 => ⟨S131072x256, .f32⟩
  | 61 => ⟨S_, .f32⟩
  | 62 => ⟨S131072x256, .f32⟩
  | 63 => ⟨S131072x256, .f32⟩
  | 64 => ⟨S131072x256, .f32⟩
  | 65 => ⟨S_, .f32⟩
  | 66 => ⟨S131072x256, .f32⟩
  | 67 => ⟨S131072x256, .f32⟩
  | 68 => ⟨S131072x256, .f32⟩
  | 69 => ⟨S_, .f32⟩
  | 70 => ⟨S131072x256, .f32⟩
  | 71 => ⟨S131072x256, .f32⟩
  | 72 => ⟨S131072x256, .f32⟩
  | 73 => ⟨S131072x64, .f32⟩
  | 74 => ⟨S131072x64, .f32⟩
  | 75 => ⟨S_, .f32⟩
  | 76 => ⟨S131072, .f32⟩
  | 77 => ⟨S_, .f32⟩
  | 78 => ⟨S131072, .f32⟩
  | 79 => ⟨S131072, .f32⟩
  | 80 => ⟨S131072, .f32⟩
  | 81 => ⟨S131072x256, .f32⟩
  | 82 => ⟨S_, .f32⟩
  | 83 => ⟨S131072x256, .f32⟩
  | 84 => ⟨S131072x256, .f32⟩
  | 85 => ⟨S131072x256, .f32⟩
  | 86 => ⟨S_, .f32⟩
  | 87 => ⟨S131072x256, .f32⟩
  | 88 => ⟨S131072x256, .f32⟩
  | 89 => ⟨S131072x256, .f32⟩
  | 90 => ⟨S_, .f32⟩
  | 91 => ⟨S131072x256, .f32⟩
  | 92 => ⟨S131072x256, .f32⟩
  | 93 => ⟨S131072x256, .f32⟩
  | 94 => ⟨S131072x64, .f32⟩
  | 95 => ⟨S131072x64, .f32⟩
  | 96 => ⟨S_, .f32⟩
  | 97 => ⟨S131072, .f32⟩
  | 98 => ⟨S_, .f32⟩
  | 99 => ⟨S131072, .f32⟩
  | 100 => ⟨S131072, .f32⟩
  | 101 => ⟨S131072, .f32⟩
  | 102 => ⟨S131072x256, .f32⟩
  | 103 => ⟨S_, .f32⟩
  | 104 => ⟨S131072x256, .f32⟩
  | 105 => ⟨S131072x256, .f32⟩
  | 106 => ⟨S131072x256, .f32⟩
  | 107 => ⟨S_, .f32⟩
  | 108 => ⟨S131072x256, .f32⟩
  | 109 => ⟨S131072x256, .f32⟩
  | 110 => ⟨S131072x256, .f32⟩
  | 111 => ⟨S_, .f32⟩
  | 112 => ⟨S131072x256, .f32⟩
  | 113 => ⟨S131072x256, .f32⟩
  | 114 => ⟨S131072x256, .f32⟩
  | 115 => ⟨S131072x64, .f32⟩
  | 116 => ⟨S131072x64, .f32⟩
  | 117 => ⟨S_, .f32⟩
  | 118 => ⟨S131072, .f32⟩
  | 119 => ⟨S_, .f32⟩
  | 120 => ⟨S131072, .f32⟩
  | 121 => ⟨S131072, .f32⟩
  | 122 => ⟨S131072, .f32⟩
  | 123 => ⟨S131072x64, .f32⟩
  | 124 => ⟨S131072x1, .f32⟩
  | 125 => ⟨S131072x1, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6_4 : Ref sig .tc := ⟨.hbm, 17, rfl⟩
abbrev main_call0_cst_0 : Ref sig .tc := ⟨.hbm, 18, rfl⟩
abbrev main_call0_v2 : Ref sig .tc := ⟨.hbm, 19, rfl⟩
abbrev main_v6_1 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4_0 : Ref sig .tc := ⟨.hbm, 24, rfl⟩
abbrev main_call0_call0_cst : Ref sig .tc := ⟨.hbm, 25, rfl⟩
abbrev main_v6_2 : Ref sig .tc := ⟨.hbm, 26, rfl⟩
abbrev main_call0_v5 : Ref sig .tc := ⟨.hbm, 27, rfl⟩
abbrev main_call0_cst_2 : Ref sig .tc := ⟨.hbm, 28, rfl⟩
abbrev main_call0_v6 : Ref sig .tc := ⟨.hbm, 29, rfl⟩
abbrev main_v6_3 : Ref sig .tc := ⟨.hbm, 30, rfl⟩
abbrev main_call0_cst_3 : Ref sig .tc := ⟨.hbm, 31, rfl⟩
abbrev main_call0_v8 : Ref sig .tc := ⟨.hbm, 32, rfl⟩
abbrev main_call0_v9 : Ref sig .tc := ⟨.hbm, 33, rfl⟩
abbrev main_v6_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_v0_1 : Ref sig .tc := ⟨.hbm, 44, rfl⟩
abbrev main_call1_v0_0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_call1_cst : Ref sig .tc := ⟨.hbm, 50, rfl⟩
abbrev main_call1_call1_v0 : Ref sig .tc := ⟨.hbm, 51, rfl⟩
abbrev main_call1_v4 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_0 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_call2_call0_cst : Ref sig .tc := ⟨.hbm, 63, rfl⟩
abbrev main_call2_call0_v0 : Ref sig .tc := ⟨.hbm, 64, rfl⟩
abbrev main_call2_v0_1 : Ref sig .tc := ⟨.hbm, 65, rfl⟩
abbrev main_call2_v0_0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_call1_cst : Ref sig .tc := ⟨.hbm, 71, rfl⟩
abbrev main_call2_call1_v0 : Ref sig .tc := ⟨.hbm, 72, rfl⟩
abbrev main_call2_v4 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_2 : Ref sig .tc := ⟨.hbm, 77, rfl⟩
abbrev main_v24 : Ref sig .tc := ⟨.hbm, 78, rfl⟩
abbrev main_cst_3 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_v0_1 : Ref sig .tc := ⟨.hbm, 86, rfl⟩
abbrev main_call3_v0_0 : Ref sig .tc := ⟨.hbm, 87, rfl⟩
abbrev main_call3_cst : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_call1_cst : Ref sig .tc := ⟨.hbm, 92, rfl⟩
abbrev main_call3_call1_v0 : Ref sig .tc := ⟨.hbm, 93, rfl⟩
abbrev main_call3_v4 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_cst_4 : Ref sig .tc := ⟨.hbm, 98, rfl⟩
abbrev main_v32 : Ref sig .tc := ⟨.hbm, 99, rfl⟩
abbrev main_cst_5 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_call4_call0_cst : Ref sig .tc := ⟨.hbm, 105, rfl⟩
abbrev main_call4_call0_v0 : Ref sig .tc := ⟨.hbm, 106, rfl⟩
abbrev main_call4_v0_1 : Ref sig .tc := ⟨.hbm, 107, rfl⟩
abbrev main_call4_v0_0 : Ref sig .tc := ⟨.hbm, 108, rfl⟩
abbrev main_call4_cst : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_call1_cst : Ref sig .tc := ⟨.hbm, 113, rfl⟩
abbrev main_call4_call1_v0 : Ref sig .tc := ⟨.hbm, 114, rfl⟩
abbrev main_call4_v4 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_6 : Ref sig .tc := ⟨.hbm, 119, rfl⟩
abbrev main_v40 : Ref sig .tc := ⟨.hbm, 120, rfl⟩
abbrev main_cst_7 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_call5_call0_cst : Ref sig .tc := ⟨.hbm, 126, rfl⟩
abbrev main_call5_call0_v0 : Ref sig .tc := ⟨.hbm, 127, rfl⟩
abbrev main_call5_v0_1 : Ref sig .tc := ⟨.hbm, 128, rfl⟩
abbrev main_call5_v0_0 : Ref sig .tc := ⟨.hbm, 129, rfl⟩
abbrev main_call5_cst : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_call1_cst : Ref sig .tc := ⟨.hbm, 134, rfl⟩
abbrev main_call5_call1_v0 : Ref sig .tc := ⟨.hbm, 135, rfl⟩
abbrev main_call5_v4 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_cst_8 : Ref sig .tc := ⟨.hbm, 140, rfl⟩
abbrev main_v48 : Ref sig .tc := ⟨.hbm, 141, rfl⟩
abbrev main_cst_9 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_call6_call0_cst : Ref sig .tc := ⟨.hbm, 147, rfl⟩
abbrev main_call6_call0_v0 : Ref sig .tc := ⟨.hbm, 148, rfl⟩
abbrev main_call6_v0_1 : Ref sig .tc := ⟨.hbm, 149, rfl⟩
abbrev main_call6_v0_0 : Ref sig .tc := ⟨.hbm, 150, rfl⟩
abbrev main_call6_cst : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_call1_cst : Ref sig .tc := ⟨.hbm, 155, rfl⟩
abbrev main_call6_call1_v0 : Ref sig .tc := ⟨.hbm, 156, rfl⟩
abbrev main_call6_v4 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_cst_10 : Ref sig .tc := ⟨.hbm, 161, rfl⟩
abbrev main_v56 : Ref sig .tc := ⟨.hbm, 162, rfl⟩
abbrev main_cst_11 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_call7_call0_cst : Ref sig .tc := ⟨.hbm, 168, rfl⟩
abbrev main_call7_call0_v0 : Ref sig .tc := ⟨.hbm, 169, rfl⟩
abbrev main_call7_v0_1 : Ref sig .tc := ⟨.hbm, 170, rfl⟩
abbrev main_call7_v0_0 : Ref sig .tc := ⟨.hbm, 171, rfl⟩
abbrev main_call7_cst : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_call1_cst : Ref sig .tc := ⟨.hbm, 176, rfl⟩
abbrev main_call7_call1_v0 : Ref sig .tc := ⟨.hbm, 177, rfl⟩
abbrev main_call7_v4 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_cst_12 : Ref sig .tc := ⟨.hbm, 182, rfl⟩
abbrev main_v64 : Ref sig .tc := ⟨.hbm, 183, rfl⟩
abbrev main_cst_13 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_call8_call0_cst : Ref sig .tc := ⟨.hbm, 189, rfl⟩
abbrev main_call8_call0_v0 : Ref sig .tc := ⟨.hbm, 190, rfl⟩
abbrev main_call8_v0_1 : Ref sig .tc := ⟨.hbm, 191, rfl⟩
abbrev main_call8_v0_0 : Ref sig .tc := ⟨.hbm, 192, rfl⟩
abbrev main_call8_cst : Ref sig .tc := ⟨.hbm, 193, rfl⟩
abbrev main_call8_v1 : Ref sig .tc := ⟨.hbm, 194, rfl⟩
abbrev main_call8_v2 : Ref sig .tc := ⟨.hbm, 195, rfl⟩
abbrev main_call8_v3 : Ref sig .tc := ⟨.hbm, 196, rfl⟩
abbrev main_call8_call1_cst : Ref sig .tc := ⟨.hbm, 197, rfl⟩
abbrev main_call8_call1_v0 : Ref sig .tc := ⟨.hbm, 198, rfl⟩
abbrev main_call8_v4 : Ref sig .tc := ⟨.hbm, 199, rfl⟩
abbrev main_v69 : Ref sig .tc := ⟨.hbm, 200, rfl⟩
abbrev main_v70 : Ref sig .tc := ⟨.hbm, 201, rfl⟩
abbrev main_v71 : Ref sig .tc := ⟨.hbm, 202, rfl⟩
abbrev main_cst_14 : Ref sig .tc := ⟨.hbm, 203, rfl⟩
abbrev main_v72 : Ref sig .tc := ⟨.hbm, 204, rfl⟩
abbrev main_cst_15 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_call9_call0_cst : Ref sig .tc := ⟨.hbm, 210, rfl⟩
abbrev main_call9_call0_v0 : Ref sig .tc := ⟨.hbm, 211, rfl⟩
abbrev main_call9_v0_1 : Ref sig .tc := ⟨.hbm, 212, rfl⟩
abbrev main_call9_v0_0 : Ref sig .tc := ⟨.hbm, 213, rfl⟩
abbrev main_call9_cst : Ref sig .tc := ⟨.hbm, 214, rfl⟩
abbrev main_call9_v1 : Ref sig .tc := ⟨.hbm, 215, rfl⟩
abbrev main_call9_v2 : Ref sig .tc := ⟨.hbm, 216, rfl⟩
abbrev main_call9_v3 : Ref sig .tc := ⟨.hbm, 217, rfl⟩
abbrev main_call9_call1_cst : Ref sig .tc := ⟨.hbm, 218, rfl⟩
abbrev main_call9_call1_v0 : Ref sig .tc := ⟨.hbm, 219, rfl⟩
abbrev main_call9_v4 : Ref sig .tc := ⟨.hbm, 220, rfl⟩
abbrev main_v77 : Ref sig .tc := ⟨.hbm, 221, rfl⟩
abbrev main_v78 : Ref sig .tc := ⟨.hbm, 222, rfl⟩
abbrev main_v79 : Ref sig .tc := ⟨.hbm, 223, rfl⟩
abbrev main_cst_16 : Ref sig .tc := ⟨.hbm, 224, rfl⟩
abbrev main_v80 : Ref sig .tc := ⟨.hbm, 225, rfl⟩
abbrev main_cst_17 : Ref sig .tc := ⟨.hbm, 226, rfl⟩
abbrev main_v81 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_call10_call0_cst : Ref sig .tc := ⟨.hbm, 231, rfl⟩
abbrev main_call10_call0_v0 : Ref sig .tc := ⟨.hbm, 232, rfl⟩
abbrev main_call10_v0_1 : Ref sig .tc := ⟨.hbm, 233, rfl⟩
abbrev main_call10_v0_0 : Ref sig .tc := ⟨.hbm, 234, rfl⟩
abbrev main_call10_cst : Ref sig .tc := ⟨.hbm, 235, rfl⟩
abbrev main_call10_v1 : Ref sig .tc := ⟨.hbm, 236, rfl⟩
abbrev main_call10_v2 : Ref sig .tc := ⟨.hbm, 237, rfl⟩
abbrev main_call10_v3 : Ref sig .tc := ⟨.hbm, 238, rfl⟩
abbrev main_call10_call1_cst : Ref sig .tc := ⟨.hbm, 239, rfl⟩
abbrev main_call10_call1_v0 : Ref sig .tc := ⟨.hbm, 240, rfl⟩
abbrev main_call10_v4 : Ref sig .tc := ⟨.hbm, 241, rfl⟩
abbrev main_v85 : Ref sig .tc := ⟨.hbm, 242, rfl⟩
abbrev main_v86 : Ref sig .tc := ⟨.hbm, 243, rfl⟩
abbrev main_v87 : Ref sig .tc := ⟨.hbm, 244, rfl⟩
abbrev main_cst_18 : Ref sig .tc := ⟨.hbm, 245, rfl⟩
abbrev main_v88 : Ref sig .tc := ⟨.hbm, 246, rfl⟩
abbrev main_cst_19 : Ref sig .tc := ⟨.hbm, 247, rfl⟩
abbrev main_v89 : Ref sig .tc := ⟨.hbm, 248, rfl⟩
abbrev main_v90 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_v94 : Ref sig .tc := ⟨.hbm, 253, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072 : S_.BroadcastsInDim S131072 (![] : Fin 0 → Fin S131072.rank)
  reducesTo_S131072x64_S131072_d1 : S131072x64.ReducesTo [1] S131072
  h_S_ : 0 < S_.numel
  bcast_S131072_S131072x1_0 : S131072.BroadcastsInDim S131072x1 (![0] : Fin 1 → Fin S131072x1.rank)
  dot_S131072x64_S64x256_S131072x256_1_0_0_1_n_n_wf : DotDims.WF S131072x64 S64x256 S131072x256 [1] [0] [0] [1] [] []
  dot_S131072x256_S256x64_S131072x64_1_0_0_1_n_n_wf : DotDims.WF S131072x256 S256x64 S131072x64 [1] [0] [0] [1] [] []
  dot_S131072x64_S256x64_S131072x256_1_1_0_0_n_n_wf : DotDims.WF S131072x64 S256x64 S131072x256 [1] [1] [0] [0] [] []
  dot_S131072x256_S64x256_S131072x64_1_1_0_0_n_n_wf : DotDims.WF S131072x256 S64x256 S131072x64 [1] [1] [0] [0] [] []

variable [Facts₀]

def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S131072x64_S256x64_S131072x256_1_1_0_0_n_n : DotDims S131072x64 S256x64 S131072x256 where
  lhsContracting := [1]
  rhsContracting := [1]
  lhsNonContracting := [0]
  rhsNonContracting := [0]
  lhsBatch := []
  rhsBatch := []
  wf := dot_S131072x64_S256x64_S131072x256_1_1_0_0_n_n_wf
def dot_S131072x256_S64x256_S131072x64_1_1_0_0_n_n : DotDims S131072x256 S64x256 S131072x64 where
  lhsContracting := [1]
  rhsContracting := [1]
  lhsNonContracting := [0]
  rhsNonContracting := [0]
  lhsBatch := []
  rhsBatch := []
  wf := dot_S131072x256_S64x256_S131072x64_1_1_0_0_n_n_wf

class Facts : Prop extends Facts₀ where

variable [Facts]
-- ==== Proof.FiniteInputs.lean ====
/-
  The precondition "every float input is finite", read back. For each of the nine input arrays a the
  precondition computes all(|a| < +inf): the absolute value max a (-a) at every index, compared strictly below the
  constant whose pattern 0x7F800000 denotes +inf, reduced by "and" over all axes from the constant 1; the nine results are
  joined by "and", and the claim states that the joined word is 1. Then each of the nine reductions is 1, hence each
  comparison is 1 at every index, hence max x (-x) < +inf for every entry x. Among the extended reals that excludes
  x = -inf (its negation is +inf) and x = +inf, which leaves a real number.
-/
import proofs.«140702_j66941360275619_2_alg».proof.Pre_finite_inputs
import Idealize.ShloMosaic.PureOps.Ideal
import Idealize.ShloMosaic.Lib.ReduceAll

noncomputable section

namespace Cert.FiniteInputs

open Idealize.ShloMosaic Cert.Pre_finite_inputs

/-- The scalar shape has one index. -/
instance : Subsingleton S_.Idx := ⟨fun a b => funext fun d => d.elim0⟩

/-- The f32 pattern 0x7F800000 denotes +inf. -/
theorem ofBits_inf : Ideal.ofBits .f32 0x7F800000#32 = (⊤ : EReal) := by
  simp [Ideal.ofBits, Ideal.ieee]

/-- An i1 word made of a truth value is 1 exactly when the truth value holds. -/
theorem ofBool_eq_one (b : Bool) : BitVec.ofBool b = 1#1 ↔ b = true := by cases b <;> decide

/-- An extended real whose absolute value max x (-x) lies strictly below +inf is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One element of the comparison |a| < +inf being 1 says that entry of a is a real number, at any shape. -/
theorem real_of_cmp {S : Shape} (hb : S_.BroadcastsInDim S (![] : Fin 0 → Fin S.rank)) (a : FVec Ideal S .f32) (i : S.Idx)
    (h : cmpf .olt (Host.absf a) (broadcastInDim S ![] hb (constant (F := Ideal) S_ .f32 0x7F800000#32)) i = 1#1) :
    ∃ r : ℝ, a i = (r : EReal) := by
  have e : cmpf .olt (Host.absf a) (broadcastInDim S ![] hb (constant (F := Ideal) S_ .f32 0x7F800000#32)) i
      = BitVec.ofBool (decide (max (a i) (-(a i)) < Ideal.ofBits .f32 0x7F800000#32)) := rfl
  rw [e, ofBits_inf, ofBool_eq_one, decide_eq_true_eq] at h
  exact real_of_abs_lt_top (a i) h

theorem of_pre [Cert.Pre_finite_inputs.Facts]
    (a0 a1 : FVec Ideal S131072x64 .f32) (a2 : FVec Ideal S131072x1 .f32) (a3 : FVec Ideal S131072x64 .f32)
    (a4 a5 : FVec Ideal S64x256 .f32) (a6 : FVec Ideal S256 .f32) (a7 : FVec Ideal S256x64 .f32) (a8 : FVec Ideal S64 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) := by
  -- the claim at the one index of the rank-0 result, with the chain of operations in view
  have e := congrFun h (fun d => d.elim0)
  dsimp only [fn, fn_part1, fn_part2] at e
  simp only [andi, IntOp.andi_eq_one] at e
  obtain ⟨⟨⟨⟨⟨⟨⟨⟨h0, h1⟩, h2⟩, h3⟩, h4⟩, h5⟩, h6⟩, h7⟩, h8⟩ := e
  exact ⟨fun i => real_of_cmp _ a0 i (Host.reduce_andi_all _ _ _ _ _ h0 i),
    fun i => real_of_cmp _ a1 i (Host.reduce_andi_all _ _ _ _ _ h1 i),
    fun i => real_of_cmp _ a2 i (Host.reduce_andi_all _ _ _ _ _ h2 i),
    fun i => real_of_cmp _ a3 i (Host.reduce_andi_all _ _ _ _ _ h3 i),
    fun i => real_of_cmp _ a4 i (Host.reduce_andi_all _ _ _ _ _ h4 i),
    fun i => real_of_cmp _ a5 i (Host.reduce_andi_all _ _ _ _ _ h5 i),
    fun i => real_of_cmp _ a6 i (Host.reduce_andi_all _ _ _ _ _ h6 i),
    fun i => real_of_cmp _ a7 i (Host.reduce_andi_all _ _ _ _ _ h7 i),
    fun i => real_of_cmp _ a8 i (Host.reduce_andi_all _ _ _ _ _ h8 i)⟩

end Cert.FiniteInputs

end
-- ==== Proof.RefStages.lean ====
/-
  The reference program's value, stage by stage, as functions of whole arrays (generic in the float
  instance): the pre-activation z = x·W1x + u·W1u + b1, the mask z > 0, the ELU and its slope, the
  residual g = elu(z)·W2 + b2, one vector–Jacobian product w ↦ ((w·W2ᵀ) ∘ elu'(z))·W1uᵀ, and the
  truncated power series  Σ_k c_k · ⟨w_k, ε⟩  with w_0 = ε, accumulated term by term from zero.
-/
import proofs.«140702_j66941360275619_2_alg».proof.Proof.Gen.ReferenceIdeal
import Idealize.ShloMosaic.PureOps

noncomputable section

namespace Cert.RefStages

open Idealize.ShloMosaic Cert.ReferenceIdeal Cert.ReferenceIdeal.Gen

variable {F : FTy → Type} [FloatOps F]

/-- The all-zero and all-one arrays of the hidden layer's shape. -/
def zeros : FVec F S131072x256 .f32 := broadcastInDim S131072x256 ![] bcast_S_S131072x256 (constant S_ .f32 0x00000000#32)
def ones : FVec F S131072x256 .f32 := broadcastInDim S131072x256 ![] bcast_S_S131072x256 (constant S_ .f32 0x3F800000#32)

/-- z = x·W1x + u·W1u + b1 (the bias broadcast along the rows). -/
def preAct (x u : FVec F S131072x64 .f32) (W1x W1u : FVec F S64x256 .f32) (b1 : FVec F S256 .f32) : FVec F S131072x256 .f32 :=
  addf (addf (Host.dotGeneral dot_S131072x64_S64x256_S131072x256_1_0_0_1_n_n none x W1x)
             (Host.dotGeneral dot_S131072x64_S64x256_S131072x256_1_0_0_1_n_n none u W1u))
       (broadcastInDim S131072x256 ![0, 1] bcast_S1x256_S131072x256_0_1 (broadcastInDim S1x256 ![1] bcast_S256_S1x256_1 b1))

/-- The mask z > 0. -/
def posMask (z : FVec F S131072x256 .f32) : IVec S131072x256 1 := cmpf .ogt z zeros

/-- exp(z') − 1 at z' = z where z ≤ 0 and z' = 0 where z > 0. -/
def expm1Safe (z : FVec F S131072x256 .f32) : FVec F S131072x256 .f32 := Host.expm1 (select (posMask z) zeros z)

/-- The negative branch's slope, (exp(z') − 1) + 1. -/
def slope (z : FVec F S131072x256 .f32) : FVec F S131072x256 .f32 := addf (expm1Safe z) ones

/-- elu(z): z where z > 0, 1·(exp(z') − 1) elsewhere. -/
def eluVal (z : FVec F S131072x256 .f32) : FVec F S131072x256 .f32 := select (posMask z) z (mulf ones (expm1Safe z))

/-- g = elu(z)·W2 + b2. -/
def residual (z : FVec F S131072x256 .f32) (W2 : FVec F S256x64 .f32) (b2 : FVec F S64 .f32) : FVec F S131072x64 .f32 :=
  addf (Host.dotGeneral dot_S131072x256_S256x64_S131072x64_1_0_0_1_n_n none (eluVal z) W2)
       (broadcastInDim S131072x64 ![0, 1] bcast_S1x64_S131072x64_0_1 (broadcastInDim S1x64 ![1] bcast_S64_S1x64_1 b2))

/-- A cotangent pulled back through the ELU: the cotangent where z > 0, plus (elsewhere) the cotangent times the slope. -/
def pullBack (z ct : FVec F S131072x256 .f32) : FVec F S131072x256 .f32 :=
  addf (select (posMask z) ct zeros) (select (posMask z) zeros (mulf (mulf ones (select (posMask z) zeros ct)) (slope z)))

/-- One vector–Jacobian product: w ↦ (pullBack (w·W2ᵀ))·W1uᵀ. -/
def vjpStep (z : FVec F S131072x256 .f32) (W2 : FVec F S256x64 .f32) (W1u : FVec F S64x256 .f32) (w : FVec F S131072x64 .f32) : FVec F S131072x64 .f32 :=
  Host.dotGeneral dot_S131072x256_S64x256_S131072x64_1_1_0_0_n_n none
    (pullBack z (Host.dotGeneral dot_S131072x64_S256x64_S131072x256_1_1_0_0_n_n none w W2)) W1u

/-- The row-wise inner product ⟨w, ε⟩, summed from zero. -/
def probeDot (w eps : FVec F S131072x64 .f32) : FVec F S131072 .f32 :=
  Host.reduceAdd (mulf w eps) (constant S_ .f32 0x00000000#32) reducesTo_S131072x64_S131072_d1 h_S_

/-- The series' coefficients (−1)^{k+1}/k for k = 1 … 10, as the single-precision words both programs carry (indexed from 0). -/
def coeffBits : ℕ → BitVec 32
  | 0 => 0x3F800000#32 | 1 => 0xBF000000#32 | 2 => 0x3EAAAAAB#32 | 3 => 0xBE800000#32 | 4 => 0x3E4CCCCD#32
  | 5 => 0xBE2AAAAB#32 | 6 => 0x3E124925#32 | 7 => 0xBE000000#32 | 8 => 0x3DE38E39#32 | _ => 0xBDCCCCCD#32

/-- w_k: k vector–Jacobian products applied to the probe ε. -/
def wIter (z : FVec F S131072x256 .f32) (W2 : FVec F S256x64 .f32) (W1u : FVec F S64x256 .f32) (eps : FVec F S131072x64 .f32) : ℕ → FVec F S131072x64 .f32
  | 0 => eps
  | k + 1 => vjpStep z W2 W1u (wIter z W2 W1u eps k)

/-- The partial sums  Σ_{j ≤ k} c_j ⟨w_j, ε⟩, from zero. -/
def accIter (z : FVec F S131072x256 .f32) (W2 : FVec F S256x64 .f32) (W1u : FVec F S64x256 .f32) (eps : FVec F S131072x64 .f32) : ℕ → FVec F S131072 .f32
  | 0 => broadcastInDim S131072 ![] bcast_S_S131072 (constant S_ .f32 0x00000000#32)
  | k + 1 => addf (accIter z W2 W1u eps k)
      (mulf (broadcastInDim S131072 ![] bcast_S_S131072 (constant S_ .f32 (coeffBits k))) (probeDot (wIter z W2 W1u eps (k + 1)) eps))

/-- The second result, v = u + g. -/
def outV (x u : FVec F S131072x64 .f32) (W1x W1u : FVec F S64x256 .f32) (b1 : FVec F S256 .f32) (W2 : FVec F S256x64 .f32) (b2 : FVec F S64 .f32) : FVec F S131072x64 .f32 :=
  addf u (residual (preAct x u W1x W1u b1) W2 b2)

/-- The third result, logpx − logdet (the series as a column). -/
def outL (x u : FVec F S131072x64 .f32) (logpx : FVec F S131072x1 .f32) (eps : FVec F S131072x64 .f32) (W1x W1u : FVec F S64x256 .f32) (b1 : FVec F S256 .f32) (W2 : FVec F S256x64 .f32) : FVec F S131072x1 .f32 :=
  subf logpx (broadcastInDim S131072x1 ![0] bcast_S131072_S131072x1_0 (accIter (preAct x u W1x W1u b1) W2 W1u eps 10))

end Cert.RefStages

end
-- ==== Proof.RefOps.lean ====
/-
  The reference program read as a straight line of host operations: the outlined ELU and its derivative
  written out at their call sites, in the order the program runs them.
-/
import proofs.«140702_j66941360275619_2_alg».proof.Proof.RefStages
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's body in place of the call. -/
abbrev ops : List (HloOp τ sig (Elt F)) :=
  [ binary main_arg0 main_arg4 main_v0 ((fun l r => Host.dotGeneral dot_S131072x64_S64x256_S131072x256_1_0_0_1_n_n none l r) : (⟨S131072x64, .f32⟩ : BufTy).Contents (Elt F) → (⟨S64x256, .f32⟩ : BufTy).Contents (Elt F) → (⟨S131072x256, .f32⟩ : BufTy).Contents (Elt F)),
    binary main_arg1 main_arg5 main_v1 ((fun l r => Host.dotGeneral dot_S131072x64_S64x256_S131072x256_1_0_0_1_n_n none l r) : (⟨S131072x64, .f32⟩ : BufTy).Contents (Elt F) → (⟨S64x256, .f32⟩ : BufTy).Contents (Elt F) → (⟨S131072x256, .f32⟩ : BufTy).Contents (Elt F)),
    binary main_v0 main_v1 main_v2 (addf : (⟨S131072x256, .f32⟩ : BufTy).Contents (Elt F) → (⟨S131072x256, .f32⟩ : BufTy).Contents (Elt F) → (⟨S131072x256, .f32⟩ : BufTy).Contents (Elt F)),
    unary main_arg6 main_v3 (broadcastInDim S1x256 ![1] bcast_S256_S1x256_1 : (⟨S256, .f32⟩ : BufTy).Contents (Elt F) → (⟨S1x256, .f32⟩ : BufTy).Contents (Elt F)),
    unary main_v3 main_v4 (broadcastInDim S131072x256 ![0, 1] bcast_S1x256_S131072x256_0_1 : (⟨S1x256, .f32⟩ : BufTy).Contents (Elt F) → (⟨S131072x256, .f32⟩ : BufTy).Contents (Elt F)),
    binary main_v2 main_v4 main_v5 (addf : (⟨S131072x256, .f32⟩ : BufTy).Contents (Elt F) → (⟨S131072x256, .f32⟩ : BufTy).Contents (Elt F) → (⟨S131072x256, .f32⟩ : BufTy).Contents (Elt F)),
    TRef.nullary main_call0.cst (constant S_ .f32 0x00000000#32),
    TRef.unary main_call0.cst main_call0.v0 (broadcastInDim S131072x256 ![] bcast_S_S131072x256),
    TRef.binary (.of main_v5) main_call0.v0 main_call0.v1 (cmpf .ogt),
    TRef.nullary main_call0.cst_0 (constant S_ .f32 0x00000000#32),
    TRef.unary main_call0.cst_0 main_call0.v2 (broadcastInDim S131072x256 ![] bcast_S_S131072x256),
    TRef.binary (.of main_v5) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S131072x256 ![] bcast_S_S131072x256),
    TRef.ternary main_call0.v3 main_call0.call0.v1 (.of main_v5) main_call0.call0.v2 select,
    TRef.nullary main_call0.call0.cst (constant S_ .f32 0x00000000#32),
    TRef.unary main_call0.call0.cst main_call0.call0.v3 (broadcastInDim S131072x256 ![] bcast_S_S131072x256),
    TRef.unary main_call0.call0.v2 main_call0.v5 Host.expm1,
    TRef.nullary main_call0.cst_2 (constant S_ .f32 0x3F800000#32),
    TRef.unary main_call0.cst_2 main_call0.v6 (broadcastInDim S131072x256 ![] bcast_S_S131072x256),
    TRef.binary main_call0.v5 main_call0.v6 main_call0.v7 addf,
    TRef.nullary main_call0.cst_3 (constant S_ .f32 0x3F800000#32),
    TRef.unary main_call0.cst_3 main_call0.v8 (broadcastInDim S131072x256 ![] bcast_S_S131072x256),
    TRef.binary main_call0.v8 main_call0.v5 main_call0.v9 mulf,
    TRef.ternary main_call0.v1 (.of main_v5) main_call0.v9 main_call0.call1.v0 select,
    binary main_v6_0 main_arg7 main_v7 ((fun l r => Host.dotGeneral dot_S131072x256_S256x64_S131072x64_1_0_0_1_n_n none l r) : (⟨S131072x256, .f32⟩ : BufTy).Contents (Elt F) → (⟨S256x64, .f32⟩ : BufTy).Contents (Elt F) → (⟨S131072x64, .f32⟩ : BufTy).Contents (Elt F)),
    unary main_arg8 main_v8 (broadcastInDim S1x64 ![1] bcast_S64_S1x64_1 : (⟨S64, .f32⟩ : BufTy).Contents (Elt F) → (⟨S1x64, .f32⟩ : BufTy).Contents (Elt F)),
    unary main_v8 main_v9 (broadcastInDim S131072x64 ![0, 1] bcast_S1x64_S131072x64_0_1 : (⟨S1x64, .f32⟩ : BufTy).Contents (Elt F) → (⟨S131072x64, .f32⟩ : BufTy).Contents (Elt F)),
    binary main_v7 main_v9 main_v10 (addf : (⟨S131072x64, .f32⟩ : BufTy).Contents (Elt F) → (⟨S131072x64, .f32⟩ : BufTy).Contents (Elt F) → (⟨S131072x64, .f32⟩ : BufTy).Contents (Elt F)),
    nullary main_cst (constant S_ .f32 0x00000000#32),
    unary main_cst main_v11 (broadcastInDim S131072 ![] bcast_S_S131072 : (⟨S_, .f32⟩ : BufTy).Contents (Elt F) → (⟨S131072, .f32⟩ : BufTy).Contents (Elt F)),
    binary main_arg3 main_arg7 main_v12 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call1.call0.cst (constant S_ .f32 0x00000000#32),
    TRef.unary main_call1.call0.cst main_call1.call0.v0 (broadcastInDim S131072x256 ![] bcast_S_S131072x256),
    TRef.ternary (.of main_v6_4) main_call1.call0.v0 (.of main_v12) main_call1.call0.v1 select,
    TRef.ternary (.of main_v6_4) (.of main_v12) main_call1.call0.v0 main_call1.call0.v2 select,
    TRef.nullary main_call1.cst (constant S_ .f32 0x3F800000#32),
    TRef.unary main_call1.cst main_call1.v1 (broadcastInDim S131072x256 ![] bcast_S_S131072x256),
    TRef.binary main_call1.v1 main_call1.call0.v1 main_call1.v2 mulf,
    TRef.binary main_call1.v2 (.of main_v6_3) main_call1.v3 mulf,
    TRef.nullary main_call1.call1.cst (constant S_ .f32 0x00000000#32),
    TRef.unary main_call1.call1.cst main_call1.call1.v0 (broadcastInDim S131072x256 ![] bcast_S_S131072x256),
    TRef.ternary (.of main_v6_1) main_call1.call1.v0 main_call1.v3 main_call1.call1.v1 select,
    TRef.binary main_call1.call0.v2 main_call1.call1.v1 main_call1.v5 addf,
    binary main_v13 main_arg5 main_v14 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v14 main_arg3 main_v15 (mulf : (⟨S131072x64, .f32⟩ : BufTy).Contents (Elt F) → (⟨S131072x64, .f32⟩ : BufTy).Contents (Elt F) → (⟨S131072x64, .f32⟩ : BufTy).Contents (Elt F)),
    nullary main_cst_0 (constant S_ .f32 0x00000000#32),
    binary main_v15 main_cst_0 main_v16 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_1 (constant S_ .f32 0x3F800000#32),
    unary main_cst_1 main_v17 (broadcastInDim S131072 ![] bcast_S_S131072 : (⟨S_, .f32⟩ : BufTy).Contents (Elt F) → (⟨S131072, .f32⟩ : BufTy).Contents (Elt F)),
    binary main_v17 main_v16 main_v18 (mulf : (⟨S131072, .f32⟩ : BufTy).Contents (Elt F) → (⟨S131072, .f32⟩ : BufTy).Contents (Elt F) → (⟨S131072, .f32⟩ : BufTy).Contents (Elt F)),
    binary main_v11 main_v18 main_v19 (addf : (⟨S131072, .f32⟩ : BufTy).Contents (Elt F) → (⟨S131072, .f32⟩ : BufTy).Contents (Elt F) → (⟨S131072, .f32⟩ : BufTy).Contents (Elt F)),
    binary main_v14 main_arg7 main_v20 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call2.call0.cst (constant S_ .f32 0x00000000#32),
    TRef.unary main_call2.call0.cst main_call2.call0.v0 (broadcastInDim S131072x256 ![] bcast_S_S131072x256),
    TRef.ternary (.of main_v6_4) main_call2.call0.v0 (.of main_v20) main_call2.call0.v1 select,
    TRef.ternary (.of main_v6_4) (.of main_v20) main_call2.call0.v0 main_call2.call0.v2 select,
    TRef.nullary main_call2.cst (constant S_ .f32 0x3F800000#32),
    TRef.unary main_call2.cst main_call2.v1 (broadcastInDim S131072x256 ![] bcast_S_S131072x256),
    TRef.binary main_call2.v1 main_call2.call0.v1 main_call2.v2 mulf,
    TRef.binary main_call2.v2 (.of main_v6_3) main_call2.v3 mulf,
    TRef.nullary main_call2.call1.cst (constant S_ .f32 0x00000000#32),
    TRef.unary main_call2.call1.cst main_call2.call1.v0 (broadcastInDim S131072x256 ![] bcast_S_S131072x256),
    TRef.ternary (.of main_v6_1) main_call2.call1.v0 main_call2.v3 main_call2.call1.v1 select,
    TRef.binary main_call2.call0.v2 main_call2.call1.v1 main_call2.v5 addf,
    binary main_v21 main_arg5 main_v22 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v22 main_arg3 main_v23 (mulf : (⟨S131072x64, .f32⟩ : BufTy).Contents (Elt F) → (⟨S131072x64, .f32⟩ : BufTy).Contents (Elt F) → (⟨S131072x64, .f32⟩ : BufTy).Contents (Elt F)),
    nullary main_cst_2 (constant S_ .f32 0x00000000#32),
    binary main_v23 main_cst_2 main_v24 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_3 (constant S_ .f32 0xBF000000#32),
    unary main_cst_3 main_v25 (broadcastInDim S131072 ![] bcast_S_S131072 : (⟨S_, .f32⟩ : BufTy).Contents (Elt F) → (⟨S131072, .f32⟩ : BufTy).Contents (Elt F)),
    binary main_v25 main_v24 main_v26 (mulf : (⟨S131072, .f32⟩ : BufTy).Contents (Elt F) → (⟨S131072, .f32⟩ : BufTy).Contents (Elt F) → (⟨S131072, .f32⟩ : BufTy).Contents (Elt F)),
    binary main_v19 main_v26 main_v27 (addf : (⟨S131072, .f32⟩ : BufTy).Contents (Elt F) → (⟨S131072, .f32⟩ : BufTy).Contents (Elt F) → (⟨S131072, .f32⟩ : BufTy).Contents (Elt F)),
    binary main_v22 main_arg7 main_v28 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call3.call0.cst (constant S_ .f32 0x00000000#32),
    TRef.unary main_call3.call0.cst main_call3.call0.v0 (broadcastInDim S131072x256 ![] bcast_S_S131072x256),
    TRef.ternary (.of main_v6_4) main_call3.call0.v0 (.of main_v28) main_call3.call0.v1 select,
    TRef.ternary (.of main_v6_4) (.of main_v28) main_call3.call0.v0 main_call3.call0.v2 select,
    TRef.nullary main_call3.cst (constant S_ .f32 0x3F800000#32),
    TRef.unary main_call3.cst main_call3.v1 (broadcastInDim S131072x256 ![] bcast_S_S131072x256),
    TRef.binary main_call3.v1 main_call3.call0.v1 main_call3.v2 mulf,
    TRef.binary main_call3.v2 (.of main_v6_3) main_call3.v3 mulf,
    TRef.nullary main_call3.call1.cst (constant S_ .f32 0x00000000#32),
    TRef.unary main_call3.call1.cst main_call3.call1.v0 (broadcastInDim S131072x256 ![] bcast_S_S131072x256),
    TRef.ternary (.of main_v6_1) main_call3.call1.v0 main_call3.v3 main_call3.call1.v1 select,
    TRef.binary main_call3.call0.v2 main_call3.call1.v1 main_call3.v5 addf,
    binary main_v29 main_arg5 main_v30 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v30 main_arg3 main_v31 (mulf : (⟨S131072x64, .f32⟩ : BufTy).Contents (Elt F) → (⟨S131072x64, .f32⟩ : BufTy).Contents (Elt F) → (⟨S131072x64, .f32⟩ : BufTy).Contents (Elt F)),
    nullary main_cst_4 (constant S_ .f32 0x00000000#32),
    binary main_v31 main_cst_4 main_v32 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_5 (constant S_ .f32 0x3EAAAAAB#32),
    unary main_cst_5 main_v33 (broadcastInDim S131072 ![] bcast_S_S131072 : (⟨S_, .f32⟩ : BufTy).Contents (Elt F) → (⟨S131072, .f32⟩ : BufTy).Contents (Elt F)),
    binary main_v33 main_v32 main_v34 (mulf : (⟨S131072, .f32⟩ : BufTy).Contents (Elt F) → (⟨S131072, .f32⟩ : BufTy).Contents (Elt F) → (⟨S131072, .f32⟩ : BufTy).Contents (Elt F)),
    binary main_v27 main_v34 main_v35 (addf : (⟨S131072, .f32⟩ : BufTy).Contents (Elt F) → (⟨S131072, .f32⟩ : BufTy).Contents (Elt F) → (⟨S131072, .f32⟩ : BufTy).Contents (Elt F)),
    binary main_v30 main_arg7 main_v36 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call4.call0.cst (constant S_ .f32 0x00000000#32),
    TRef.unary main_call4.call0.cst main_call4.call0.v0 (broadcastInDim S131072x256 ![] bcast_S_S131072x256),
    TRef.ternary (.of main_v6_4) main_call4.call0.v0 (.of main_v36) main_call4.call0.v1 select,
    TRef.ternary (.of main_v6_4) (.of main_v36) main_call4.call0.v0 main_call4.call0.v2 select,
    TRef.nullary main_call4.cst (constant S_ .f32 0x3F800000#32),
    TRef.unary main_call4.cst main_call4.v1 (broadcastInDim S131072x256 ![] bcast_S_S131072x256),
    TRef.binary main_call4.v1 main_call4.call0.v1 main_call4.v2 mulf,
    TRef.binary main_call4.v2 (.of main_v6_3) main_call4.v3 mulf,
    TRef.nullary main_call4.call1.cst (constant S_ .f32 0x00000000#32),
    TRef.unary main_call4.call1.cst main_call4.call1.v0 (broadcastInDim S131072x256 ![] bcast_S_S131072x256),
    TRef.ternary (.of main_v6_1) main_call4.call1.v0 main_call4.v3 main_call4.call1.v1 select,
    TRef.binary main_call4.call0.v2 main_call4.call1.v1 main_call4.v5 addf,
    binary main_v37 main_arg5 main_v38 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v38 main_arg3 main_v39 (mulf : (⟨S131072x64, .f32⟩ : BufTy).Contents (Elt F) → (⟨S131072x64, .f32⟩ : BufTy).Contents (Elt F) → (⟨S131072x64, .f32⟩ : BufTy).Contents (Elt F)),
    nullary main_cst_6 (constant S_ .f32 0x00000000#32),
    binary main_v39 main_cst_6 main_v40 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_7 (constant S_ .f32 0xBE800000#32),
    unary main_cst_7 main_v41 (broadcastInDim S131072 ![] bcast_S_S131072 : (⟨S_, .f32⟩ : BufTy).Contents (Elt F) → (⟨S131072, .f32⟩ : BufTy).Contents (Elt F)),
    binary main_v41 main_v40 main_v42 (mulf : (⟨S131072, .f32⟩ : BufTy).Contents (Elt F) → (⟨S131072, .f32⟩ : BufTy).Contents (Elt F) → (⟨S131072, .f32⟩ : BufTy).Contents (Elt F)),
    binary main_v35 main_v42 main_v43 (addf : (⟨S131072, .f32⟩ : BufTy).Contents (Elt F) → (⟨S131072, .f32⟩ : BufTy).Contents (Elt F) → (⟨S131072, .f32⟩ : BufTy).Contents (Elt F)),
    binary main_v38 main_arg7 main_v44 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call5.call0.cst (constant S_ .f32 0x00000000#32),
    TRef.unary main_call5.call0.cst main_call5.call0.v0 (broadcastInDim S131072x256 ![] bcast_S_S131072x256),
    TRef.ternary (.of main_v6_4) main_call5.call0.v0 (.of main_v44) main_call5.call0.v1 select,
    TRef.ternary (.of main_v6_4) (.of main_v44) main_call5.call0.v0 main_call5.call0.v2 select,
    TRef.nullary main_call5.cst (constant S_ .f32 0x3F800000#32),
    TRef.unary main_call5.cst main_call5.v1 (broadcastInDim S131072x256 ![] bcast_S_S131072x256),
    TRef.binary main_call5.v1 main_call5.call0.v1 main_call5.v2 mulf,
    TRef.binary main_call5.v2 (.of main_v6_3) main_call5.v3 mulf,
    TRef.nullary main_call5.call1.cst (constant S_ .f32 0x00000000#32),
    TRef.unary main_call5.call1.cst main_call5.call1.v0 (broadcastInDim S131072x256 ![] bcast_S_S131072x256),
    TRef.ternary (.of main_v6_1) main_call5.call1.v0 main_call5.v3 main_call5.call1.v1 select,
    TRef.binary main_call5.call0.v2 main_call5.call1.v1 main_call5.v5 addf,
    binary main_v45 main_arg5 main_v46 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v46 main_arg3 main_v47 (mulf : (⟨S131072x64, .f32⟩ : BufTy).Contents (Elt F) → (⟨S131072x64, .f32⟩ : BufTy).Contents (Elt F) → (⟨S131072x64, .f32⟩ : BufTy).Contents (Elt F)),
    nullary main_cst_8 (constant S_ .f32 0x00000000#32),
    binary main_v47 main_cst_8 main_v48 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_9 (constant S_ .f32 0x3E4CCCCD#32),
    unary main_cst_9 main_v49 (broadcastInDim S131072 ![] bcast_S_S131072 : (⟨S_, .f32⟩ : BufTy).Contents (Elt F) → (⟨S131072, .f32⟩ : BufTy).Contents (Elt F)),
    binary main_v49 main_v48 main_v50 (mulf : (⟨S131072, .f32⟩ : BufTy).Contents (Elt F) → (⟨S131072, .f32⟩ : BufTy).Contents (Elt F) → (⟨S131072, .f32⟩ : BufTy).Contents (Elt F)),
    binary main_v43 main_v50 main_v51 (addf : (⟨S131072, .f32⟩ : BufTy).Contents (Elt F) → (⟨S131072, .f32⟩ : BufTy).Contents (Elt F) → (⟨S131072, .f32⟩ : BufTy).Contents (Elt F)),
    binary main_v46 main_arg7 main_v52 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call6.call0.cst (constant S_ .f32 0x00000000#32),
    TRef.unary main_call6.call0.cst main_call6.call0.v0 (broadcastInDim S131072x256 ![] bcast_S_S131072x256),
    TRef.ternary (.of main_v6_4) main_call6.call0.v0 (.of main_v52) main_call6.call0.v1 select,
    TRef.ternary (.of main_v6_4) (.of main_v52) main_call6.call0.v0 main_call6.call0.v2 select,
    TRef.nullary main_call6.cst (constant S_ .f32 0x3F800000#32),
    TRef.unary main_call6.cst main_call6.v1 (broadcastInDim S131072x256 ![] bcast_S_S131072x256),
    TRef.binary main_call6.v1 main_call6.call0.v1 main_call6.v2 mulf,
    TRef.binary main_call6.v2 (.of main_v6_3) main_call6.v3 mulf,
    TRef.nullary main_call6.call1.cst (constant S_ .f32 0x00000000#32),
    TRef.unary main_call6.call1.cst main_call6.call1.v0 (broadcastInDim S131072x256 ![] bcast_S_S131072x256),
    TRef.ternary (.of main_v6_1) main_call6.call1.v0 main_call6.v3 main_call6.call1.v1 select,
    TRef.binary main_call6.call0.v2 main_call6.call1.v1 main_call6.v5 addf,
    binary main_v53 main_arg5 main_v54 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v54 main_arg3 main_v55 (mulf : (⟨S131072x64, .f32⟩ : BufTy).Contents (Elt F) → (⟨S131072x64, .f32⟩ : BufTy).Contents (Elt F) → (⟨S131072x64, .f32⟩ : BufTy).Contents (Elt F)),
    nullary main_cst_10 (constant S_ .f32 0x00000000#32),
    binary main_v55 main_cst_10 main_v56 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_11 (constant S_ .f32 0xBE2AAAAB#32),
    unary main_cst_11 main_v57 (broadcastInDim S131072 ![] bcast_S_S131072 : (⟨S_, .f32⟩ : BufTy).Contents (Elt F) → (⟨S131072, .f32⟩ : BufTy).Contents (Elt F)),
    binary main_v57 main_v56 main_v58 (mulf : (⟨S131072, .f32⟩ : BufTy).Contents (Elt F) → (⟨S131072, .f32⟩ : BufTy).Contents (Elt F) → (⟨S131072, .f32⟩ : BufTy).Contents (Elt F)),
    binary main_v51 main_v58 main_v59 (addf : (⟨S131072, .f32⟩ : BufTy).Contents (Elt F) → (⟨S131072, .f32⟩ : BufTy).Contents (Elt F) → (⟨S131072, .f32⟩ : BufTy).Contents (Elt F)),
    binary main_v54 main_arg7 main_v60 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call7.call0.cst (constant S_ .f32 0x00000000#32),
    TRef.unary main_call7.call0.cst main_call7.call0.v0 (broadcastInDim S131072x256 ![] bcast_S_S131072x256),
    TRef.ternary (.of main_v6_4) main_call7.call0.v0 (.of main_v60) main_call7.call0.v1 select,
    TRef.ternary (.of main_v6_4) (.of main_v60) main_call7.call0.v0 main_call7.call0.v2 select,
    TRef.nullary main_call7.cst (constant S_ .f32 0x3F800000#32),
    TRef.unary main_call7.cst main_call7.v1 (broadcastInDim S131072x256 ![] bcast_S_S131072x256),
    TRef.binary main_call7.v1 main_call7.call0.v1 main_call7.v2 mulf,
    TRef.binary main_call7.v2 (.of main_v6_3) main_call7.v3 mulf,
    TRef.nullary main_call7.call1.cst (constant S_ .f32 0x00000000#32),
    TRef.unary main_call7.call1.cst main_call7.call1.v0 (broadcastInDim S131072x256 ![] bcast_S_S131072x256),
    TRef.ternary (.of main_v6_1) main_call7.call1.v0 main_call7.v3 main_call7.call1.v1 select,
    TRef.binary main_call7.call0.v2 main_call7.call1.v1 main_call7.v5 addf,
    binary main_v61 main_arg5 main_v62 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v62 main_arg3 main_v63 (mulf : (⟨S131072x64, .f32⟩ : BufTy).Contents (Elt F) → (⟨S131072x64, .f32⟩ : BufTy).Contents (Elt F) → (⟨S131072x64, .f32⟩ : BufTy).Contents (Elt F)),
    nullary main_cst_12 (constant S_ .f32 0x00000000#32),
    binary main_v63 main_cst_12 main_v64 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_13 (constant S_ .f32 0x3E124925#32),
    unary main_cst_13 main_v65 (broadcastInDim S131072 ![] bcast_S_S131072 : (⟨S_, .f32⟩ : BufTy).Contents (Elt F) → (⟨S131072, .f32⟩ : BufTy).Contents (Elt F)),
    binary main_v65 main_v64 main_v66 (mulf : (⟨S131072, .f32⟩ : BufTy).Contents (Elt F) → (⟨S131072, .f32⟩ : BufTy).Contents (Elt F) → (⟨S131072, .f32⟩ : BufTy).Contents (Elt F)),
    binary main_v59 main_v66 main_v67 (addf : (⟨S131072, .f32⟩ : BufTy).Contents (Elt F) → (⟨S131072, .f32⟩ : BufTy).Contents (Elt F) → (⟨S131072, .f32⟩ : BufTy).Contents (Elt F)),
    binary main_v62 main_arg7 main_v68 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call8.call0.cst (constant S_ .f32 0x00000000#32),
    TRef.unary main_call8.call0.cst main_call8.call0.v0 (broadcastInDim S131072x256 ![] bcast_S_S131072x256),
    TRef.ternary (.of main_v6_4) main_call8.call0.v0 (.of main_v68) main_call8.call0.v1 select,
    TRef.ternary (.of main_v6_4) (.of main_v68) main_call8.call0.v0 main_call8.call0.v2 select,
    TRef.nullary main_call8.cst (constant S_ .f32 0x3F800000#32),
    TRef.unary main_call8.cst main_call8.v1 (broadcastInDim S131072x256 ![] bcast_S_S131072x256),
    TRef.binary main_call8.v1 main_call8.call0.v1 main_call8.v2 mulf,
    TRef.binary main_call8.v2 (.of main_v6_3) main_call8.v3 mulf,
    TRef.nullary main_call8.call1.cst (constant S_ .f32 0x00000000#32),
    TRef.unary main_call8.call1.cst main_call8.call1.v0 (broadcastInDim S131072x256 ![] bcast_S_S131072x256),
    TRef.ternary (.of main_v6_1) main_call8.call1.v0 main_call8.v3 main_call8.call1.v1 select,
    TRef.binary main_call8.call0.v2 main_call8.call1.v1 main_call8.v5 addf,
    binary main_v69 main_arg5 main_v70 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v70 main_arg3 main_v71 (mulf : (⟨S131072x64, .f32⟩ : BufTy).Contents (Elt F) → (⟨S131072x64, .f32⟩ : BufTy).Contents (Elt F) → (⟨S131072x64, .f32⟩ : BufTy).Contents (Elt F)),
    nullary main_cst_14 (constant S_ .f32 0x00000000#32),
    binary main_v71 main_cst_14 main_v72 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_15 (constant S_ .f32 0xBE000000#32),
    unary main_cst_15 main_v73 (broadcastInDim S131072 ![] bcast_S_S131072 : (⟨S_, .f32⟩ : BufTy).Contents (Elt F) → (⟨S131072, .f32⟩ : BufTy).Contents (Elt F)),
    binary main_v73 main_v72 main_v74 (mulf : (⟨S131072, .f32⟩ : BufTy).Contents (Elt F) → (⟨S131072, .f32⟩ : BufTy).Contents (Elt F) → (⟨S131072, .f32⟩ : BufTy).Contents (Elt F)),
    binary main_v67 main_v74 main_v75 (addf : (⟨S131072, .f32⟩ : BufTy).Contents (Elt F) → (⟨S131072, .f32⟩ : BufTy).Contents (Elt F) → (⟨S131072, .f32⟩ : BufTy).Contents (Elt F)),
    binary main_v70 main_arg7 main_v76 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call9.call0.cst (constant S_ .f32 0x00000000#32),
    TRef.unary main_call9.call0.cst main_call9.call0.v0 (broadcastInDim S131072x256 ![] bcast_S_S131072x256),
    TRef.ternary (.of main_v6_4) main_call9.call0.v0 (.of main_v76) main_call9.call0.v1 select,
    TRef.ternary (.of main_v6_4) (.of main_v76) main_call9.call0.v0 main_call9.call0.v2 select,
    TRef.nullary main_call9.cst (constant S_ .f32 0x3F800000#32),
    TRef.unary main_call9.cst main_call9.v1 (broadcastInDim S131072x256 ![] bcast_S_S131072x256),
    TRef.binary main_call9.v1 main_call9.call0.v1 main_call9.v2 mulf,
    TRef.binary main_call9.v2 (.of main_v6_3) main_call9.v3 mulf,
    TRef.nullary main_call9.call1.cst (constant S_ .f32 0x00000000#32),
    TRef.unary main_call9.call1.cst main_call9.call1.v0 (broadcastInDim S131072x256 ![] bcast_S_S131072x256),
    TRef.ternary (.of main_v6_1) main_call9.call1.v0 main_call9.v3 main_call9.call1.v1 select,
    TRef.binary main_call9.call0.v2 main_call9.call1.v1 main_call9.v5 addf,
    binary main_v77 main_arg5 main_v78 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v78 main_arg3 main_v79 (mulf : (⟨S131072x64, .f32⟩ : BufTy).Contents (Elt F) → (⟨S131072x64, .f32⟩ : BufTy).Contents (Elt F) → (⟨S131072x64, .f32⟩ : BufTy).Contents (Elt F)),
    nullary main_cst_16 (constant S_ .f32 0x00000000#32),
    binary main_v79 main_cst_16 main_v80 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_17 (constant S_ .f32 0x3DE38E39#32),
    unary main_cst_17 main_v81 (broadcastInDim S131072 ![] bcast_S_S131072 : (⟨S_, .f32⟩ : BufTy).Contents (Elt F) → (⟨S131072, .f32⟩ : BufTy).Contents (Elt F)),
    binary main_v81 main_v80 main_v82 (mulf : (⟨S131072, .f32⟩ : BufTy).Contents (Elt F) → (⟨S131072, .f32⟩ : BufTy).Contents (Elt F) → (⟨S131072, .f32⟩ : BufTy).Contents (Elt F)),
    binary main_v75 main_v82 main_v83 (addf : (⟨S131072, .f32⟩ : BufTy).Contents (Elt F) → (⟨S131072, .f32⟩ : BufTy).Contents (Elt F) → (⟨S131072, .f32⟩ : BufTy).Contents (Elt F)),
    binary main_v78 main_arg7 main_v84 ((fun l r => Host.dotGeneral dot_S131072x64_S256x64_S131072x256_1_1_0_0_n_n none l r) : (⟨S131072x64, .f32⟩ : BufTy).Contents (Elt F) → (⟨S256x64, .f32⟩ : BufTy).Contents (Elt F) → (⟨S131072x256, .f32⟩ : BufTy).Contents (Elt F)),
    TRef.nullary main_call10.call0.cst (constant S_ .f32 0x00000000#32),
    TRef.unary main_call10.call0.cst main_call10.call0.v0 (broadcastInDim S131072x256 ![] bcast_S_S131072x256),
    TRef.ternary (.of main_v6_4) main_call10.call0.v0 (.of main_v84) main_call10.call0.v1 select,
    TRef.ternary (.of main_v6_4) (.of main_v84) main_call10.call0.v0 main_call10.call0.v2 select,
    TRef.nullary main_call10.cst (constant S_ .f32 0x3F800000#32),
    TRef.unary main_call10.cst main_call10.v1 (broadcastInDim S131072x256 ![] bcast_S_S131072x256),
    TRef.binary main_call10.v1 main_call10.call0.v1 main_call10.v2 mulf,
    TRef.binary main_call10.v2 (.of main_v6_3) main_call10.v3 mulf,
    TRef.nullary main_call10.call1.cst (constant S_ .f32 0x00000000#32),
    TRef.unary main_call10.call1.cst main_call10.call1.v0 (broadcastInDim S131072x256 ![] bcast_S_S131072x256),
    TRef.ternary (.of main_v6_1) main_call10.call1.v0 main_call10.v3 main_call10.call1.v1 select,
    TRef.binary main_call10.call0.v2 main_call10.call1.v1 main_call10.v5 addf,
    binary main_v85 main_arg5 main_v86 ((fun l r => Host.dotGeneral dot_S131072x256_S64x256_S131072x64_1_1_0_0_n_n none l r) : (⟨S131072x256, .f32⟩ : BufTy).Contents (Elt F) → (⟨S64x256, .f32⟩ : BufTy).Contents (Elt F) → (⟨S131072x64, .f32⟩ : BufTy).Contents (Elt F)),
    binary main_v86 main_arg3 main_v87 (mulf : (⟨S131072x64, .f32⟩ : BufTy).Contents (Elt F) → (⟨S131072x64, .f32⟩ : BufTy).Contents (Elt F) → (⟨S131072x64, .f32⟩ : BufTy).Contents (Elt F)),
    nullary main_cst_18 (constant S_ .f32 0x00000000#32),
    binary main_v87 main_cst_18 main_v88 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_19 (constant S_ .f32 0xBDCCCCCD#32),
    unary main_cst_19 main_v89 (broadcastInDim S131072 ![] bcast_S_S131072 : (⟨S_, .f32⟩ : BufTy).Contents (Elt F) → (⟨S131072, .f32⟩ : BufTy).Contents (Elt F)),
    binary main_v89 main_v88 main_v90 (mulf : (⟨S131072, .f32⟩ : BufTy).Contents (Elt F) → (⟨S131072, .f32⟩ : BufTy).Contents (Elt F) → (⟨S131072, .f32⟩ : BufTy).Contents (Elt F)),
    binary main_v83 main_v90 main_v91 (addf : (⟨S131072, .f32⟩ : BufTy).Contents (Elt F) → (⟨S131072, .f32⟩ : BufTy).Contents (Elt F) → (⟨S131072, .f32⟩ : BufTy).Contents (Elt F)),
    binary main_arg1 main_v10 main_v92 (addf : (⟨S131072x64, .f32⟩ : BufTy).Contents (Elt F) → (⟨S131072x64, .f32⟩ : BufTy).Contents (Elt F) → (⟨S131072x64, .f32⟩ : BufTy).Contents (Elt F)),
    unary main_v91 main_v93 (broadcastInDim S131072x1 ![0] bcast_S131072_S131072x1_0 : (⟨S131072, .f32⟩ : BufTy).Contents (Elt F) → (⟨S131072x1, .f32⟩ : BufTy).Contents (Elt F)),
    binary main_arg2 main_v93 main_v94 (subf : (⟨S131072x1, .f32⟩ : BufTy).Contents (Elt F) → (⟨S131072x1, .f32⟩ : BufTy).Contents (Elt F) → (⟨S131072x1, .f32⟩ : BufTy).Contents (Elt F)) ]

set_option maxRecDepth 16384 in
set_option maxHeartbeats 4000000 in
/-- @main is that straight line, once the called bodies are unfolded and the sequencing reassociated. -/
theorem main_eq (c : Dev nD) : main (F := F) c = seq ops := by
  simp only [main, main_part0, main_part1, fn_elu.body, fn_elu_1.body, fn_where.body, fn_where_0.body, fn_where_2.body, fn_where_3.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., ternary_bufs_sub .., ternary_bufs_sub .., nullary_bufs_sub .., unary_bufs_sub .., binary_bufs_sub .., binary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., binary_bufs_sub ..⟩

end Cert.RefOps

end
-- ==== Proof.RefRun.lean ====
/-
  The reference program's run: every weakly fair execution terminates with the two computed results at the
  stage functions of the argument arrays (v = u + g, and logpx minus the accumulated series), the arguments unchanged.
-/
import proofs.«140702_j66941360275619_2_alg».proof.Proof.RefOps

noncomputable section

namespace Cert.RefRun

open Cert.ReferenceIdeal Cert.ReferenceIdeal.Gen Cert.RefOps Idealize.ShloMosaic Idealize.ShloMosaic.TcCoe Idealize.SL.Sem Idealize.ShloMosaic.StableHlo

variable {F : FTy → Type} [FloatOps F]

set_option maxRecDepth 16384 in
set_option maxHeartbeats 8000000 in
/-- The line's fold at the second result is v = u + g of the launch contents. -/
theorem res_v92 (V : Valuation τ sig (Elt F)) :
    after ops V (main_v92 : DevRef τ sig) = Cert.RefStages.outV (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

set_option maxRecDepth 16384 in
set_option maxHeartbeats 8000000 in
/-- The line's fold at the third result is logpx minus the accumulated series of the launch contents. -/
theorem res_v94 (V : Valuation τ sig (Elt F)) :
    after ops V (main_v94 : DevRef τ sig) = Cert.RefStages.outL (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxRecDepth 16384 in
set_option maxHeartbeats 8000000 in
theorem kept_main_arg0 (V : Valuation τ sig (Elt F)) : after ops V (main_arg0 : DevRef τ sig) = V (main_arg0 : DevRef τ sig) := by
  after_results_simp

set_option maxRecDepth 16384 in
set_option maxHeartbeats 8000000 in
theorem kept_main_arg1 (V : Valuation τ sig (Elt F)) : after ops V (main_arg1 : DevRef τ sig) = V (main_arg1 : DevRef τ sig) := by
  after_results_simp

set_option maxRecDepth 16384 in
set_option maxHeartbeats 8000000 in
theorem kept_main_arg2 (V : Valuation τ sig (Elt F)) : after ops V (main_arg2 : DevRef τ sig) = V (main_arg2 : DevRef τ sig) := by
  after_results_simp

set_option maxRecDepth 16384 in
set_option maxHeartbeats 8000000 in
theorem kept_main_arg3 (V : Valuation τ sig (Elt F)) : after ops V (main_arg3 : DevRef τ sig) = V (main_arg3 : DevRef τ sig) := by
  after_results_simp

set_option maxRecDepth 16384 in
set_option maxHeartbeats 8000000 in
theorem kept_main_arg4 (V : Valuation τ sig (Elt F)) : after ops V (main_arg4 : DevRef τ sig) = V (main_arg4 : DevRef τ sig) := by
  after_results_simp

set_option maxRecDepth 16384 in
set_option maxHeartbeats 8000000 in
theorem kept_main_arg5 (V : Valuation τ sig (Elt F)) : after ops V (main_arg5 : DevRef τ sig) = V (main_arg5 : DevRef τ sig) := by
  after_results_simp

set_option maxRecDepth 16384 in
set_option maxHeartbeats 8000000 in
theorem kept_main_arg6 (V : Valuation τ sig (Elt F)) : after ops V (main_arg6 : DevRef τ sig) = V (main_arg6 : DevRef τ sig) := by
  after_results_simp

set_option maxRecDepth 16384 in
set_option maxHeartbeats 8000000 in
theorem kept_main_arg7 (V : Valuation τ sig (Elt F)) : after ops V (main_arg7 : DevRef τ sig) = V (main_arg7 : DevRef τ sig) := by
  after_results_simp

set_option maxRecDepth 16384 in
set_option maxHeartbeats 8000000 in
theorem kept_main_arg8 (V : Valuation τ sig (Elt F)) : after ops V (main_arg8 : DevRef τ sig) = V (main_arg8 : DevRef τ sig) := by
  after_results_simp

/-- On every device, from any memory with zero counters: every weakly fair execution of @main terminates with the two
    computed results at the stage functions of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = Cert.RefStages.outV (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v94) = Cert.RefStages.outL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v92).trans (res_v92 _), (h c main_v94).trans (res_v94 _),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _)⟩)
    (run_seq scopedRefs_eq scopedSems_eq defs main (fun _ => ops) main_eq (fun _ => ops_sub) m ρ)

end Cert.RefRun

end
-- ==== Proof.Spec.lean ====
/-
  The mathematics of one row, free of any program.

  Fix a row. Write ε (a vector over the input dimension ι) for the probe, A c j for the second layer's weight
  from hidden unit c to output j, B j c for the first layer's weight from input j to hidden unit c, and d c for
  the ELU's slope at hidden unit c. The Jacobian of the residual map is J = B · diag(d) · A, and one
  vector–Jacobian product is  w ↦ ((w · Aᵀ) ∘ d) · Bᵀ  (refStep). The reference accumulates  ⟨w_k, ε⟩  with
  w_0 = ε, w_k = refStep w_{k-1}  (refW, refQ). The kernel never forms w_k: it carries the hidden-space vector
  s_k with s_0 = (ε · Aᵀ) ∘ d and s_k = (s_{k-1} · M) ∘ d, where M a b = Σ_j A b j · B j a  (kerM, kerS), and
  accumulates ⟨s_k, ε · B⟩ (kerVe, kerP). Over the reals the two agree term by term: s_k = (w_k · Aᵀ) ∘ d
  (kerS_eq) by exchanging the two finite sums, hence ⟨s_k, ε·B⟩ = ⟨w_{k+1}, ε⟩ (kerP_eq). The exchange uses
  distributivity, which the extended reals lack at the infinities; so the statement over the extended reals
  (kerP_eq_refQ) asks every entry to be a real number and goes through the reals.
-/
import Idealize.ShloMosaic.PureOps.Ideal

noncomputable section

namespace Cert.Spec

open Finset Idealize.ShloMosaic

section Generic

variable {R : Type} [AddCommMonoid R] [Mul R] {ι κ : Type} [Fintype ι] [Fintype κ]

/-- One vector–Jacobian product at a row: w ↦ ((w · Aᵀ) ∘ d) · Bᵀ. -/
def refStep (A : κ → ι → R) (B : ι → κ → R) (d : κ → R) (w : ι → R) : ι → R :=
  fun j => ∑ c, ((∑ j', w j' * A c j') * d c) * B j c

/-- w_k: k vector–Jacobian products applied to the probe. -/
def refW (A : κ → ι → R) (B : ι → κ → R) (d : κ → R) (e : ι → R) : ℕ → ι → R
  | 0 => e
  | k + 1 => refStep A B d (refW A B d e k)

/-- ⟨w_k, ε⟩. -/
def refQ (A : κ → ι → R) (B : ι → κ → R) (d : κ → R) (e : ι → R) (k : ℕ) : R := ∑ j, refW A B d e k j * e j

/-- The composite hidden-by-hidden matrix M a b = Σ_j A b j · B j a. -/
def kerM (A : κ → ι → R) (B : ι → κ → R) : κ → κ → R := fun a b => ∑ j, A b j * B j a

/-- ε · B, the probe carried to the hidden space. -/
def kerVe (B : ι → κ → R) (e : ι → R) : κ → R := fun c => ∑ j, e j * B j c

/-- s_k: s_0 = (ε · Aᵀ) ∘ d, s_{k+1} = (s_k · M) ∘ d. -/
def kerS (A : κ → ι → R) (B : ι → κ → R) (d : κ → R) (e : ι → R) : ℕ → κ → R
  | 0 => fun c => (∑ j, e j * A c j) * d c
  | k + 1 => fun b => (∑ a, kerS A B d e k a * kerM A B a b) * d b

/-- ⟨s_k, ε · B⟩. -/
def kerP (A : κ → ι → R) (B : ι → κ → R) (d : κ → R) (e : ι → R) (k : ℕ) : R := ∑ c, kerS A B d e k c * kerVe B e c

/-- The partial sums  Σ_{j < k} c_j · q_j, accumulated from zero in order. -/
def series (c q : ℕ → R) : ℕ → R
  | 0 => 0
  | k + 1 => series c q k + c k * q k

theorem series_congr (c q q' : ℕ → R) (h : ∀ k, q k = q' k) (n : ℕ) : series c q n = series c q' n := by
  induction n with
  | zero => rfl
  | succ k ih => simp only [series, ih, h k]

end Generic

/-! ## Over the reals: the two recurrences are one -/

section Real

variable {ι κ : Type} [Fintype ι] [Fintype κ] (A : κ → ι → ℝ) (B : ι → κ → ℝ) (d : κ → ℝ) (e : ι → ℝ)

/-- The kernel's hidden-space vector is the reference's cotangent pushed through Aᵀ and the slope. -/
theorem kerS_eq (k : ℕ) (b : κ) : kerS A B d e k b = (∑ j, refW A B d e k j * A b j) * d b := by
  induction k generalizing b with
  | zero => rfl
  | succ k ih =>
    show (∑ a, kerS A B d e k a * kerM A B a b) * d b = (∑ j, refStep A B d (refW A B d e k) j * A b j) * d b
    congr 1
    simp only [ih, kerM, refStep, Finset.mul_sum, Finset.sum_mul]
    rw [Finset.sum_comm]
    refine Finset.sum_congr rfl fun j _ => Finset.sum_congr rfl fun a _ => Finset.sum_congr rfl fun x _ => ?_
    ring

/-- Term by term the kernel's inner product is the reference's next one. -/
theorem kerP_eq (k : ℕ) : kerP A B d e k = refQ A B d e (k + 1) := by
  show (∑ c, kerS A B d e k c * kerVe B e c) = ∑ j, refStep A B d (refW A B d e k) j * e j
  simp only [kerS_eq, kerVe, refStep, Finset.mul_sum, Finset.sum_mul]
  rw [Finset.sum_comm]
  refine Finset.sum_congr rfl fun j _ => Finset.sum_congr rfl fun a _ => Finset.sum_congr rfl fun x _ => ?_
  ring

end Real

/-! ## Transfer to the extended reals -/

/-- The inclusion of the reals commutes with finite sums. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

section Transfer

variable {ι κ : Type} [Fintype ι] [Fintype κ] (A : κ → ι → ℝ) (B : ι → κ → ℝ) (d : κ → ℝ) (e : ι → ℝ)

theorem refW_coe (k : ℕ) (j : ι) :
    refW (fun c j => (A c j : EReal)) (fun j c => (B j c : EReal)) (fun c => (d c : EReal)) (fun j => (e j : EReal)) k j
      = ((refW A B d e k j : ℝ) : EReal) := by
  induction k generalizing j with
  | zero => rfl
  | succ k ih =>
    show (∑ c, ((∑ j', refW _ _ _ _ k j' * (A c j' : EReal)) * (d c : EReal)) * (B j c : EReal)) = ((refStep A B d (refW A B d e k) j : ℝ) : EReal)
    simp only [ih, refStep, ← EReal.coe_mul, ← coe_sum]

theorem refQ_coe (k : ℕ) :
    refQ (fun c j => (A c j : EReal)) (fun j c => (B j c : EReal)) (fun c => (d c : EReal)) (fun j => (e j : EReal)) k
      = ((refQ A B d e k : ℝ) : EReal) := by
  simp only [refQ, refW_coe, ← EReal.coe_mul, ← coe_sum]

theorem kerS_coe (k : ℕ) (b : κ) :
    kerS (fun c j => (A c j : EReal)) (fun j c => (B j c : EReal)) (fun c => (d c : EReal)) (fun j => (e j : EReal)) k b
      = ((kerS A B d e k b : ℝ) : EReal) := by
  induction k generalizing b with
  | zero => simp only [kerS, ← EReal.coe_mul, ← coe_sum]
  | succ k ih =>
    show (∑ a, kerS _ _ _ _ k a * kerM (fun c j => (A c j : EReal)) (fun j c => (B j c : EReal)) a b) * (d b : EReal) = _
    simp only [ih, kerS, kerM, ← EReal.coe_mul, ← coe_sum]

theorem kerP_coe (k : ℕ) :
    kerP (fun c j => (A c j : EReal)) (fun j c => (B j c : EReal)) (fun c => (d c : EReal)) (fun j => (e j : EReal)) k
      = ((kerP A B d e k : ℝ) : EReal) := by
  simp only [kerP, kerS_coe, kerVe, ← EReal.coe_mul, ← coe_sum]

end Transfer

/-- Over the extended reals, with every entry a real number, the kernel's k-th inner product is the reference's (k+1)-th. -/
theorem kerP_eq_refQ {ι κ : Type} [Fintype ι] [Fintype κ] (A : κ → ι → EReal) (B : ι → κ → EReal) (d : κ → EReal) (e : ι → EReal)
    (hA : ∀ c j, ∃ r : ℝ, A c j = (r : EReal)) (hB : ∀ j c, ∃ r : ℝ, B j c = (r : EReal))
    (hd : ∀ c, ∃ r : ℝ, d c = (r : EReal)) (he : ∀ j, ∃ r : ℝ, e j = (r : EReal)) (k : ℕ) :
    kerP A B d e k = refQ A B d e (k + 1) := by
  choose A' hA' using hA
  choose B' hB' using hB
  choose d' hd' using hd
  choose e' he' using he
  obtain rfl : A = fun c j => (A' c j : EReal) := funext fun c => funext fun j => hA' c j
  obtain rfl : B = fun j c => (B' j c : EReal) := funext fun j => funext fun c => hB' j c
  obtain rfl : d = fun c => (d' c : EReal) := funext hd'
  obtain rfl : e = fun j => (e' j : EReal) := funext he'
  rw [kerP_coe, refQ_coe, kerP_eq]

/-! ## The ELU's slope and value at one entry -/

/-- The slope as the reference's derivative computes it: 1 where z > 0, (exp z − 1) + 1 elsewhere. -/
def slopeRef (z : EReal) : EReal := if 0 < z then 1 else (Ideal.exp z - 1) + 1

/-- The slope as the kernel computes it: 1 where z > 0, exp z elsewhere. -/
def slopeKer (z : EReal) : EReal := if 0 < z then 1 else Ideal.exp z

/-- At a real pre-activation the two slopes agree and are real. -/
theorem slope_real (z : ℝ) : slopeRef (z : EReal) = slopeKer (z : EReal) ∧ ∃ r : ℝ, slopeKer (z : EReal) = (r : EReal) := by
  have hexp : Ideal.exp (z : EReal) = ((Real.exp z : ℝ) : EReal) := rfl
  have h1 : (((Real.exp z : ℝ) : EReal) - 1) + 1 = ((Real.exp z : ℝ) : EReal) := by
    rw [← EReal.coe_one, ← EReal.coe_sub, ← EReal.coe_add, sub_add_cancel]
  unfold slopeRef slopeKer
  by_cases hz : (0 : EReal) < (z : EReal)
  · rw [if_pos hz, if_pos hz]; exact ⟨rfl, 1, EReal.coe_one.symm⟩
  · rw [if_neg hz, if_neg hz, hexp, h1]; exact ⟨rfl, Real.exp z, rfl⟩

/-- The ELU at one entry: z where z > 0, exp z − 1 elsewhere. -/
def eluE (z : EReal) : EReal := if 0 < z then z else Ideal.exp z - 1

end Cert.Spec

end
-- ==== Proof.RefRead.lean ====
/-
  The reference's stages read at a row. With A c j = W2[c, j], B j c = W1u[j, c], ε the probe's row and the
  slope taken at the row's pre-activations, the k-th cotangent w_k at row r is the row recurrence refW, the
  row inner products are refQ, and the third result at (r, 0) is logpx[r, 0] minus the accumulated series.
-/
import proofs.«140702_j66941360275619_2_alg».proof.Proof.RefStages
import proofs.«140702_j66941360275619_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.RefRead

open Idealize.ShloMosaic Idealize.ShloMosaic.ValueIdx Cert.ReferenceIdeal Cert.ReferenceIdeal.Gen Cert.RefStages Cert.Spec

/-- The four contractions of the reference: rows by W1 (R1), hidden by W2 (R2), a cotangent by W2ᵀ (R3), a hidden cotangent by W1uᵀ (R4). -/
abbrev R1 := dot_S131072x64_S64x256_S131072x256_1_0_0_1_n_n
abbrev R2 := dot_S131072x256_S256x64_S131072x64_1_0_0_1_n_n
abbrev R3 := dot_S131072x64_S256x64_S131072x256_1_1_0_0_n_n
abbrev R4 := dot_S131072x256_S64x256_S131072x64_1_1_0_0_n_n

/-! ## Scalars broadcast -/

theorem bcast0_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ h _ j ix0 (fun a => a.elim0)

theorem zeros_apply (i : S131072x256.Idx) : zeros (F := Ideal) i = (0 : EReal) := by
  unfold zeros; rw [bcast0_apply, Ideal.ofBits_zero_f32]

theorem ones_apply (i : S131072x256.Idx) : ones (F := Ideal) i = (1 : EReal) := by
  unfold ones; rw [bcast0_apply, Ideal.ofBits_one_f32]

/-! ## The contractions at an entry -/

theorem lhs_R1 (r : Fin 131072) (c : Fin 256) (i : Fin 64) :
    R1.lhsIdx (ix2 r c) ((contrEquiv1 R1 64 rfl rfl).symm i) = ix2 r i := by
  funext a; apply Fin.ext
  match a with
  | ⟨0, _⟩ => rfl
  | ⟨1, _⟩ => exact (R1.lhsIdx_val_of_single rfl _ _).trans (contrEquiv1_symm_val R1 64 rfl rfl i)

theorem rhs_R1 (r : Fin 131072) (c : Fin 256) (i : Fin 64) :
    R1.rhsIdx (ix2 r c) ((contrEquiv1 R1 64 rfl rfl).symm i) = ix2 i c := by
  funext a; apply Fin.ext
  match a with
  | ⟨0, _⟩ => exact (R1.rhsIdx_val_of_single rfl _ _).trans (contrEquiv1_symm_val R1 64 rfl rfl i)
  | ⟨1, _⟩ => rfl

/-- (x · W)[r, c] = Σ_i x[r, i] · W[i, c]. -/
theorem dot_R1_apply (x : FVec Ideal S131072x64 .f32) (w : FVec Ideal S64x256 .f32) (r : Fin 131072) (c : Fin 256) :
    Host.dotGeneral R1 none x w (ix2 r c) = ∑ i : Fin 64, x (ix2 r i) * w (ix2 i c) := by
  simp only [Host.dotGeneral]
  rw [Ideal.dotGeneral_apply, ← Equiv.sum_comp (contrEquiv1 R1 64 rfl rfl).symm]
  simp only [lhs_R1, rhs_R1]

theorem lhs_R2 (r : Fin 131072) (j : Fin 64) (i : Fin 256) :
    R2.lhsIdx (ix2 r j) ((contrEquiv1 R2 256 rfl rfl).symm i) = ix2 r i := by
  funext a; apply Fin.ext
  match a with
  | ⟨0, _⟩ => rfl
  | ⟨1, _⟩ => exact (R2.lhsIdx_val_of_single rfl _ _).trans (contrEquiv1_symm_val R2 256 rfl rfl i)

theorem rhs_R2 (r : Fin 131072) (j : Fin 64) (i : Fin 256) :
    R2.rhsIdx (ix2 r j) ((contrEquiv1 R2 256 rfl rfl).symm i) = ix2 i j := by
  funext a; apply Fin.ext
  match a with
  | ⟨0, _⟩ => exact (R2.rhsIdx_val_of_single rfl _ _).trans (contrEquiv1_symm_val R2 256 rfl rfl i)
  | ⟨1, _⟩ => rfl

/-- (h · W2)[r, j] = Σ_c h[r, c] · W2[c, j]. -/
theorem dot_R2_apply (h : FVec Ideal S131072x256 .f32) (w : FVec Ideal S256x64 .f32) (r : Fin 131072) (j : Fin 64) :
    Host.dotGeneral R2 none h w (ix2 r j) = ∑ c : Fin 256, h (ix2 r c) * w (ix2 c j) := by
  simp only [Host.dotGeneral]
  rw [Ideal.dotGeneral_apply, ← Equiv.sum_comp (contrEquiv1 R2 256 rfl rfl).symm]
  simp only [lhs_R2, rhs_R2]

theorem lhs_R3 (r : Fin 131072) (c : Fin 256) (i : Fin 64) :
    R3.lhsIdx (ix2 r c) ((contrEquiv1 R3 64 rfl rfl).symm i) = ix2 r i := by
  funext a; apply Fin.ext
  match a with
  | ⟨0, _⟩ => rfl
  | ⟨1, _⟩ => exact (R3.lhsIdx_val_of_single rfl _ _).trans (contrEquiv1_symm_val R3 64 rfl rfl i)

theorem rhs_R3 (r : Fin 131072) (c : Fin 256) (i : Fin 64) :
    R3.rhsIdx (ix2 r c) ((contrEquiv1 R3 64 rfl rfl).symm i) = ix2 c i := by
  funext a; apply Fin.ext
  match a with
  | ⟨0, _⟩ => rfl
  | ⟨1, _⟩ => exact (R3.rhsIdx_val_of_single rfl _ _).trans (contrEquiv1_symm_val R3 64 rfl rfl i)

/-- (w · W2ᵀ)[r, c] = Σ_j w[r, j] · W2[c, j]. -/
theorem dot_R3_apply (w : FVec Ideal S131072x64 .f32) (w2 : FVec Ideal S256x64 .f32) (r : Fin 131072) (c : Fin 256) :
    Host.dotGeneral R3 none w w2 (ix2 r c) = ∑ j : Fin 64, w (ix2 r j) * w2 (ix2 c j) := by
  simp only [Host.dotGeneral]
  rw [Ideal.dotGeneral_apply, ← Equiv.sum_comp (contrEquiv1 R3 64 rfl rfl).symm]
  simp only [lhs_R3, rhs_R3]

theorem lhs_R4 (r : Fin 131072) (j : Fin 64) (i : Fin 256) :
    R4.lhsIdx (ix2 r j) ((contrEquiv1 R4 256 rfl rfl).symm i) = ix2 r i := by
  funext a; apply Fin.ext
  match a with
  | ⟨0, _⟩ => rfl
  | ⟨1, _⟩ => exact (R4.lhsIdx_val_of_single rfl _ _).trans (contrEquiv1_symm_val R4 256 rfl rfl i)

theorem rhs_R4 (r : Fin 131072) (j : Fin 64) (i : Fin 256) :
    R4.rhsIdx (ix2 r j) ((contrEquiv1 R4 256 rfl rfl).symm i) = ix2 j i := by
  funext a; apply Fin.ext
  match a with
  | ⟨0, _⟩ => rfl
  | ⟨1, _⟩ => exact (R4.rhsIdx_val_of_single rfl _ _).trans (contrEquiv1_symm_val R4 256 rfl rfl i)

/-- (t · W1uᵀ)[r, j] = Σ_c t[r, c] · W1u[j, c]. -/
theorem dot_R4_apply (t : FVec Ideal S131072x256 .f32) (w1 : FVec Ideal S64x256 .f32) (r : Fin 131072) (j : Fin 64) :
    Host.dotGeneral R4 none t w1 (ix2 r j) = ∑ c : Fin 256, t (ix2 r c) * w1 (ix2 j c) := by
  simp only [Host.dotGeneral]
  rw [Ideal.dotGeneral_apply, ← Equiv.sum_comp (contrEquiv1 R4 256 rfl rfl).symm]
  simp only [lhs_R4, rhs_R4]

/-! ## The pre-activation at an entry -/

theorem biasRow_apply (b1 : FVec Ideal S256 .f32) (r : Fin 131072) (c : Fin 256) :
    broadcastInDim S131072x256 ![0, 1] bcast_S1x256_S131072x256_0_1 (broadcastInDim S1x256 ![1] bcast_S256_S1x256_1 b1) (ix2 r c) = b1 (ix1 c) := by
  refine (broadcastInDim_apply _ _ _ (ix2 r c) (ix2 (0 : Fin 1) c) (fun a => ?_)).trans ?_
  · match a with
    | ⟨0, _⟩ => rfl
    | ⟨1, _⟩ => rfl
  · exact broadcastInDim_apply _ _ _ _ (ix1 c) (fun a => match a with | ⟨0, _⟩ => rfl)

/-- The row's pre-activations: z[r, c] = Σ_i x[r,i]·W1x[i,c] + Σ_i u[r,i]·W1u[i,c] + b1[c]. -/
def zRow (x u : FVec Ideal S131072x64 .f32) (W1x W1u : FVec Ideal S64x256 .f32) (b1 : FVec Ideal S256 .f32) (r : Fin 131072) (c : Fin 256) : EReal :=
  ((∑ i : Fin 64, x (ix2 r i) * W1x (ix2 i c)) + ∑ i : Fin 64, u (ix2 r i) * W1u (ix2 i c)) + b1 (ix1 c)

theorem preAct_apply (x u : FVec Ideal S131072x64 .f32) (W1x W1u : FVec Ideal S64x256 .f32) (b1 : FVec Ideal S256 .f32) (r : Fin 131072) (c : Fin 256) :
    preAct x u W1x W1u b1 (ix2 r c) = zRow x u W1x W1u b1 r c := by
  unfold preAct zRow
  rw [addf_apply, addf_apply, biasRow_apply]
  exact congrArg₂ (fun a b => (a + b) + b1 (ix1 c)) (dot_R1_apply x W1x r c) (dot_R1_apply u W1u r c)

/-! ## The ELU's derivative applied to a cotangent, entry by entry -/

theorem mask_apply (z : FVec Ideal S131072x256 .f32) (i : S131072x256.Idx) :
    posMask z i = BitVec.ofBool (decide ((0 : EReal) < z i)) := by
  unfold posMask
  rw [cmpf_apply, zeros_apply]
  rfl

/-- The cotangent pulled back through the ELU is the cotangent times the slope. -/
theorem pullBack_apply (z ct : FVec Ideal S131072x256 .f32) (i : S131072x256.Idx) :
    pullBack z ct i = ct i * slopeRef (z i) := by
  unfold pullBack Cert.RefStages.slope expm1Safe
  simp only [addf_apply, mulf_apply, select_apply, mask_apply, zeros_apply, ones_apply, Host.expm1, Ideal.hostUnary_expm1_def]
  by_cases h : (0 : EReal) < z i
  · have hb : BitVec.ofBool (decide ((0 : EReal) < z i)) = 1#1 := by simp [h]
    simp only [hb, select_one, slopeRef, if_pos h, add_zero, mul_one]
  · have hb : BitVec.ofBool (decide ((0 : EReal) < z i)) = 0#1 := by simp [h]
    simp only [hb, select_zero, slopeRef, if_neg h, zero_add, one_mul]

/-! ## One vector–Jacobian product, and w_k, at a row -/

theorem vjpStep_apply (z : FVec Ideal S131072x256 .f32) (W2 : FVec Ideal S256x64 .f32) (W1u : FVec Ideal S64x256 .f32)
    (w : FVec Ideal S131072x64 .f32) (r : Fin 131072) (j : Fin 64) :
    vjpStep z W2 W1u w (ix2 r j)
      = refStep (fun c j => W2 (ix2 c j)) (fun j c => W1u (ix2 j c)) (fun c => slopeRef (z (ix2 r c))) (fun j => w (ix2 r j)) j := by
  unfold vjpStep refStep
  rw [dot_R4_apply]
  simp only [pullBack_apply, dot_R3_apply]

theorem wIter_apply (z : FVec Ideal S131072x256 .f32) (W2 : FVec Ideal S256x64 .f32) (W1u : FVec Ideal S64x256 .f32)
    (eps : FVec Ideal S131072x64 .f32) (r : Fin 131072) (k : ℕ) (j : Fin 64) :
    wIter z W2 W1u eps k (ix2 r j)
      = refW (fun c j => W2 (ix2 c j)) (fun j c => W1u (ix2 j c)) (fun c => slopeRef (z (ix2 r c))) (fun j => eps (ix2 r j)) k j := by
  induction k generalizing j with
  | zero => rfl
  | succ k ih =>
    show vjpStep z W2 W1u (wIter z W2 W1u eps k) (ix2 r j) = refStep _ _ _ (refW _ _ _ _ k) j
    rw [vjpStep_apply]
    exact congrArg (fun w => refStep _ _ _ w j) (funext ih)

/-! ## The row inner products and the accumulated series -/

theorem lift_row (h : S131072x64.Reduces [1] S131072) (r : Fin 131072) (j : Fin 64) : h.lift (ix1 r) j = ix2 r j := by
  funext a; apply Fin.ext
  match a with
  | ⟨0, _⟩ => rfl
  | ⟨1, _⟩ => rfl

/-- ⟨w, ε⟩ at row r, summed from zero. -/
theorem probeDot_apply (w eps : FVec Ideal S131072x64 .f32) (r : Fin 131072) :
    probeDot w eps (ix1 r) = ∑ j : Fin 64, w (ix2 r j) * eps (ix2 r j) := by
  unfold probeDot
  have h : S131072x64.Reduces [1] S131072 := by decide
  show Ideal.hostReduceAdd reducesTo_S131072x64_S131072_d1 (mulf w eps) (constant (F := Ideal) S_ .f32 0x00000000#32 ix0) (ix1 r) = _
  rw [Ideal.hostReduceAdd_single _ h, constant_apply, Ideal.ofBits_zero_f32, zero_add]
  exact Finset.sum_congr rfl fun j _ => congrArg (mulf w eps) (lift_row h r j)

/-- The series' coefficients as extended reals. -/
def coeff (k : ℕ) : EReal := Ideal.ofBits .f32 (coeffBits k)

theorem accIter_apply (z : FVec Ideal S131072x256 .f32) (W2 : FVec Ideal S256x64 .f32) (W1u : FVec Ideal S64x256 .f32)
    (eps : FVec Ideal S131072x64 .f32) (r : Fin 131072) (k : ℕ) :
    accIter z W2 W1u eps k (ix1 r)
      = series coeff (fun k => refQ (fun c j => W2 (ix2 c j)) (fun j c => W1u (ix2 j c)) (fun c => slopeRef (z (ix2 r c))) (fun j => eps (ix2 r j)) (k + 1)) k := by
  induction k with
  | zero =>
    show broadcastInDim S131072 ![] bcast_S_S131072 (constant (F := Ideal) S_ .f32 0x00000000#32) (ix1 r) = (0 : EReal)
    rw [bcast0_apply, Ideal.ofBits_zero_f32]
  | succ k ih =>
    show addf (accIter z W2 W1u eps k)
        (mulf (broadcastInDim S131072 ![] bcast_S_S131072 (constant (F := Ideal) S_ .f32 (coeffBits k))) (probeDot (wIter z W2 W1u eps (k + 1)) eps)) (ix1 r)
      = series coeff _ k + coeff k * refQ _ _ _ _ (k + 1)
    rw [addf_apply, mulf_apply, ih, bcast0_apply, probeDot_apply]
    unfold refQ coeff
    simp only [wIter_apply]

/-- The third result at (r, 0): logpx[r, 0] minus the ten-term series. -/
theorem outL_apply (x u : FVec Ideal S131072x64 .f32) (logpx : FVec Ideal S131072x1 .f32) (eps : FVec Ideal S131072x64 .f32)
    (W1x W1u : FVec Ideal S64x256 .f32) (b1 : FVec Ideal S256 .f32) (W2 : FVec Ideal S256x64 .f32) (r : Fin 131072) :
    outL x u logpx eps W1x W1u b1 W2 (ix2 r (0 : Fin 1))
      = logpx (ix2 r (0 : Fin 1)) - series coeff (fun k => refQ (fun c j => W2 (ix2 c j)) (fun j c => W1u (ix2 j c))
          (fun c => slopeRef (zRow x u W1x W1u b1 r c)) (fun j => eps (ix2 r j)) (k + 1)) 10 := by
  unfold outL
  rw [subf_apply]
  have hb : broadcastInDim S131072x1 ![0] bcast_S131072_S131072x1_0 (accIter (preAct x u W1x W1u b1) W2 W1u eps 10) (ix2 r (0 : Fin 1))
      = accIter (preAct x u W1x W1u b1) W2 W1u eps 10 (ix1 r) :=
    broadcastInDim_apply _ _ _ _ (ix1 r) (fun a => match a with | ⟨0, _⟩ => rfl)
  rw [hb, accIter_apply]
  simp only [preAct_apply]

/-! ## The second result at an entry -/

theorem eluVal_apply (z : FVec Ideal S131072x256 .f32) (i : S131072x256.Idx) : eluVal z i = eluE (z i) := by
  unfold eluVal expm1Safe
  simp only [mulf_apply, select_apply, mask_apply, zeros_apply, ones_apply, Host.expm1, Ideal.hostUnary_expm1_def]
  by_cases h : (0 : EReal) < z i
  · have hb : BitVec.ofBool (decide ((0 : EReal) < z i)) = 1#1 := by simp [h]
    simp only [hb, select_one, eluE, if_pos h]
  · have hb : BitVec.ofBool (decide ((0 : EReal) < z i)) = 0#1 := by simp [h]
    simp only [hb, select_zero, eluE, if_neg h, one_mul]

theorem biasRow64_apply (b2 : FVec Ideal S64 .f32) (r : Fin 131072) (j : Fin 64) :
    broadcastInDim S131072x64 ![0, 1] bcast_S1x64_S131072x64_0_1 (broadcastInDim S1x64 ![1] bcast_S64_S1x64_1 b2) (ix2 r j) = b2 (ix1 j) := by
  refine (broadcastInDim_apply _ _ _ (ix2 r j) (ix2 (0 : Fin 1) j) (fun a => ?_)).trans ?_
  · match a with
    | ⟨0, _⟩ => rfl
    | ⟨1, _⟩ => rfl
  · exact broadcastInDim_apply _ _ _ _ (ix1 j) (fun a => match a with | ⟨0, _⟩ => rfl)

/-- v[r, j] = u[r, j] + (Σ_c elu(z[r, c]) · W2[c, j] + b2[j]). -/
theorem outV_apply (x u : FVec Ideal S131072x64 .f32) (W1x W1u : FVec Ideal S64x256 .f32) (b1 : FVec Ideal S256 .f32)
    (W2 : FVec Ideal S256x64 .f32) (b2 : FVec Ideal S64 .f32) (r : Fin 131072) (j : Fin 64) :
    outV x u W1x W1u b1 W2 b2 (ix2 r j)
      = u (ix2 r j) + ((∑ c : Fin 256, eluE (zRow x u W1x W1u b1 r c) * W2 (ix2 c j)) + b2 (ix1 j)) := by
  unfold outV Cert.RefStages.residual
  rw [addf_apply, addf_apply, biasRow64_apply, dot_R2_apply]
  simp only [eluVal_apply, preAct_apply]

end Cert.RefRead

end
-- ==== Proof.KerRead.lean ====
/-
  The kernel body's values read at a row of a block. With the same row data as the reference — A c j = W2[c, j],
  B j c = W1u[j, c], the probe's row ε, the slope d at the row's pre-activations — the hidden-space vectors the
  body carries are the recurrence kerS over the composite matrix, the row sums it accumulates are kerP, and what
  it stores to the second output at row p is logpx[p, 0] minus the ten-term series.
-/
import proofs.«140702_j66941360275619_2_alg».proof.Proof.Gen.KernelIdeal.Skeleton
import proofs.«140702_j66941360275619_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KerRead

open Idealize.ShloMosaic Idealize.ShloMosaic.ValueIdx Cert.KernelIdeal Cert.KernelIdeal.Gen Cert.Spec

/-- The body's five contractions: the fused first layer (K1), hidden by W2 (K2), the probe by W1u (K3), the probe by W2ᵀ (K4),
    a hidden vector by the composite matrix (K5). -/
abbrev K1 := dot_S2048x128_S128x256_S2048x256_1_0_0_1_n_n
abbrev K2 := dot_S2048x256_S256x64_S2048x64_1_0_0_1_n_n
abbrev K3 := dot_S2048x64_S64x256_S2048x256_1_0_0_1_n_n
abbrev K4 := dot_S2048x64_S256x64_S2048x256_1_1_0_0_n_n
abbrev K5 := dot_S2048x256_S256x256_S2048x256_1_0_0_1_n_n

/-! ## The contractions at an entry -/

theorem lhs_K1 (p : Fin 2048) (q : Fin 256) (i : Fin 128) :
    K1.lhsIdx (ix2 p q) ((contrEquiv1 K1 128 rfl rfl).symm i) = ix2 p i := by
  funext a; apply Fin.ext
  match a with
  | ⟨0, _⟩ => rfl
  | ⟨1, _⟩ => exact (K1.lhsIdx_val_of_single rfl _ _).trans (contrEquiv1_symm_val K1 128 rfl rfl i)

theorem rhs_K1 (p : Fin 2048) (q : Fin 256) (i : Fin 128) :
    K1.rhsIdx (ix2 p q) ((contrEquiv1 K1 128 rfl rfl).symm i) = ix2 i q := by
  funext a; apply Fin.ext
  match a with
  | ⟨0, _⟩ => exact (K1.rhsIdx_val_of_single rfl _ _).trans (contrEquiv1_symm_val K1 128 rfl rfl i)
  | ⟨1, _⟩ => rfl

/-- (xu · Wc)[p, c] = Σ_k xu[p, k] · Wc[k, c]. -/
theorem mm_K1_apply (l : FVec Ideal S2048x128 .bf16) (r : FVec Ideal S128x256 .bf16) (p : Fin 2048) (q : Fin 256) :
    matmul K1 none l r (constant (F := Ideal) S2048x256 .f32 0x00000000#32) (ix2 p q) = ∑ i : Fin 128, l (ix2 p i) * r (ix2 i q) := by
  simp only [matmul]
  rw [Ideal.matmul_constant_zero_apply, ← Equiv.sum_comp (contrEquiv1 K1 128 rfl rfl).symm]
  simp only [lhs_K1, rhs_K1]

theorem lhs_K2 (p : Fin 2048) (q : Fin 64) (i : Fin 256) :
    K2.lhsIdx (ix2 p q) ((contrEquiv1 K2 256 rfl rfl).symm i) = ix2 p i := by
  funext a; apply Fin.ext
  match a with
  | ⟨0, _⟩ => rfl
  | ⟨1, _⟩ => exact (K2.lhsIdx_val_of_single rfl _ _).trans (contrEquiv1_symm_val K2 256 rfl rfl i)

theorem rhs_K2 (p : Fin 2048) (q : Fin 64) (i : Fin 256) :
    K2.rhsIdx (ix2 p q) ((contrEquiv1 K2 256 rfl rfl).symm i) = ix2 i q := by
  funext a; apply Fin.ext
  match a with
  | ⟨0, _⟩ => exact (K2.rhsIdx_val_of_single rfl _ _).trans (contrEquiv1_symm_val K2 256 rfl rfl i)
  | ⟨1, _⟩ => rfl

/-- (h · W2)[p, j] = Σ_c h[p, c] · W2[c, j]. -/
theorem mm_K2_apply (l : FVec Ideal S2048x256 .bf16) (r : FVec Ideal S256x64 .bf16) (p : Fin 2048) (q : Fin 64) :
    matmul K2 none l r (constant (F := Ideal) S2048x64 .f32 0x00000000#32) (ix2 p q) = ∑ i : Fin 256, l (ix2 p i) * r (ix2 i q) := by
  simp only [matmul]
  rw [Ideal.matmul_constant_zero_apply, ← Equiv.sum_comp (contrEquiv1 K2 256 rfl rfl).symm]
  simp only [lhs_K2, rhs_K2]

theorem lhs_K3 (p : Fin 2048) (q : Fin 256) (i : Fin 64) :
    K3.lhsIdx (ix2 p q) ((contrEquiv1 K3 64 rfl rfl).symm i) = ix2 p i := by
  funext a; apply Fin.ext
  match a with
  | ⟨0, _⟩ => rfl
  | ⟨1, _⟩ => exact (K3.lhsIdx_val_of_single rfl _ _).trans (contrEquiv1_symm_val K3 64 rfl rfl i)

theorem rhs_K3 (p : Fin 2048) (q : Fin 256) (i : Fin 64) :
    K3.rhsIdx (ix2 p q) ((contrEquiv1 K3 64 rfl rfl).symm i) = ix2 i q := by
  funext a; apply Fin.ext
  match a with
  | ⟨0, _⟩ => exact (K3.rhsIdx_val_of_single rfl _ _).trans (contrEquiv1_symm_val K3 64 rfl rfl i)
  | ⟨1, _⟩ => rfl

/-- (ε · W1u)[p, c] = Σ_j ε[p, j] · W1u[j, c]. -/
theorem mm_K3_apply (l : FVec Ideal S2048x64 .bf16) (r : FVec Ideal S64x256 .bf16) (p : Fin 2048) (q : Fin 256) :
    matmul K3 none l r (constant (F := Ideal) S2048x256 .f32 0x00000000#32) (ix2 p q) = ∑ i : Fin 64, l (ix2 p i) * r (ix2 i q) := by
  simp only [matmul]
  rw [Ideal.matmul_constant_zero_apply, ← Equiv.sum_comp (contrEquiv1 K3 64 rfl rfl).symm]
  simp only [lhs_K3, rhs_K3]

theorem lhs_K4 (p : Fin 2048) (q : Fin 256) (i : Fin 64) :
    K4.lhsIdx (ix2 p q) ((contrEquiv1 K4 64 rfl rfl).symm i) = ix2 p i := by
  funext a; apply Fin.ext
  match a with
  | ⟨0, _⟩ => rfl
  | ⟨1, _⟩ => exact (K4.lhsIdx_val_of_single rfl _ _).trans (contrEquiv1_symm_val K4 64 rfl rfl i)

theorem rhs_K4 (p : Fin 2048) (q : Fin 256) (i : Fin 64) :
    K4.rhsIdx (ix2 p q) ((contrEquiv1 K4 64 rfl rfl).symm i) = ix2 q i := by
  funext a; apply Fin.ext
  match a with
  | ⟨0, _⟩ => rfl
  | ⟨1, _⟩ => exact (K4.rhsIdx_val_of_single rfl _ _).trans (contrEquiv1_symm_val K4 64 rfl rfl i)

/-- (ε · W2ᵀ)[p, c] = Σ_j ε[p, j] · W2[c, j]. -/
theorem mm_K4_apply (l : FVec Ideal S2048x64 .bf16) (r : FVec Ideal S256x64 .bf16) (p : Fin 2048) (q : Fin 256) :
    matmul K4 none l r (constant (F := Ideal) S2048x256 .f32 0x00000000#32) (ix2 p q) = ∑ i : Fin 64, l (ix2 p i) * r (ix2 q i) := by
  simp only [matmul]
  rw [Ideal.matmul_constant_zero_apply, ← Equiv.sum_comp (contrEquiv1 K4 64 rfl rfl).symm]
  simp only [lhs_K4, rhs_K4]

theorem lhs_K5 (p : Fin 2048) (q : Fin 256) (i : Fin 256) :
    K5.lhsIdx (ix2 p q) ((contrEquiv1 K5 256 rfl rfl).symm i) = ix2 p i := by
  funext a; apply Fin.ext
  match a with
  | ⟨0, _⟩ => rfl
  | ⟨1, _⟩ => exact (K5.lhsIdx_val_of_single rfl _ _).trans (contrEquiv1_symm_val K5 256 rfl rfl i)

theorem rhs_K5 (p : Fin 2048) (q : Fin 256) (i : Fin 256) :
    K5.rhsIdx (ix2 p q) ((contrEquiv1 K5 256 rfl rfl).symm i) = ix2 i q := by
  funext a; apply Fin.ext
  match a with
  | ⟨0, _⟩ => exact (K5.rhsIdx_val_of_single rfl _ _).trans (contrEquiv1_symm_val K5 256 rfl rfl i)
  | ⟨1, _⟩ => rfl

/-- (s · M)[p, b] = Σ_a s[p, a] · M[a, b]. -/
theorem mm_K5_apply (l : FVec Ideal S2048x256 .bf16) (r : FVec Ideal S256x256 .bf16) (p : Fin 2048) (q : Fin 256) :
    matmul K5 none l r (constant (F := Ideal) S2048x256 .f32 0x00000000#32) (ix2 p q) = ∑ i : Fin 256, l (ix2 p i) * r (ix2 i q) := by
  simp only [matmul]
  rw [Ideal.matmul_constant_zero_apply, ← Equiv.sum_comp (contrEquiv1 K5 256 rfl rfl).symm]
  simp only [lhs_K5, rhs_K5]

/-! ## Layout pieces at an entry -/

theorem rowBias256 (b1 : FVec Ideal S256 .f32) (p : Fin 2048) (c : Fin 256) :
    broadcastTo S2048x256 (shapeCast S1x256 b1 shapeCasts_S256_S1x256) broadcasts_S1x256_S2048x256 (ix2 p c) = b1 (ix1 c) :=
  (broadcastTo_1b_ab_apply _ _ p c).trans (shapeCast_a_1a_apply b1 _ 0 c)

theorem rowBias64 (b2 : FVec Ideal S64 .f32) (p : Fin 2048) (j : Fin 64) :
    broadcastTo S2048x64 (shapeCast S1x64 b2 shapeCasts_S64_S1x64) broadcasts_S1x64_S2048x64 (ix2 p j) = b2 (ix1 j) :=
  (broadcastTo_1b_ab_apply _ _ p j).trans (shapeCast_a_1a_apply b2 _ 0 j)

/-- The two inputs side by side: the first 64 columns are x's. -/
theorem xu_left (x u : FVec Ideal S2048x64 .bf16) (p : Fin 2048) (i : Fin 64) :
    concatenate S2048x128 1 [⟨S2048x64, x⟩, ⟨S2048x64, u⟩] concatenates_S2048x64_S2048x64_S2048x128_d1 (ix2 p (Fin.castAdd 64 i)) = x (ix2 p i) :=
  concatenate_pair_apply_left (t := S2048x128) 1 x u concatenates_S2048x64_S2048x64_S2048x128_d1 (ix2 p (Fin.castAdd 64 i)) rfl (ix2 p i)
    (fun b => match b with | ⟨0, _⟩ => rfl | ⟨1, _⟩ => rfl)

/-- … and the last 64 are u's. -/
theorem xu_right (x u : FVec Ideal S2048x64 .bf16) (p : Fin 2048) (i : Fin 64) :
    concatenate S2048x128 1 [⟨S2048x64, x⟩, ⟨S2048x64, u⟩] concatenates_S2048x64_S2048x64_S2048x128_d1 (ix2 p (Fin.natAdd 64 i)) = u (ix2 p i) :=
  concatenate_pair_apply_right (t := S2048x128) 1 x u concatenates_S2048x64_S2048x64_S2048x128_d1 (ix2 p (Fin.natAdd 64 i)) rfl rfl (ix2 p i)
    (fun b => match b with | ⟨0, _⟩ => fun _ => rfl | ⟨1, _⟩ => fun h => absurd rfl h)
    (by show i.val + 64 = 64 + i.val; omega)

theorem sum_split128 (f : Fin 128 → EReal) :
    ∑ k : Fin 128, f k = (∑ i : Fin 64, f (Fin.castAdd 64 i)) + ∑ i : Fin 64, f (Fin.natAdd 64 i) :=
  Fin.sum_univ_add (M := EReal) (a := 64) (b := 64) f

theorem lift_row (h : S2048x256.Reduces [1] S2048) (p : Fin 2048) (c : Fin 256) : h.lift (ix1 p) c = ix2 p c := by
  funext a; apply Fin.ext
  match a with
  | ⟨0, _⟩ => rfl
  | ⟨1, _⟩ => rfl

/-- A row sum kept as a column: Σ_c X[p, c]. -/
theorem rowsum_apply (X : FVec Ideal S2048x256 .f32) (p : Fin 2048) :
    shapeCast S2048x1 (multiReduction .add [1] S2048 X 0x00000000#32 reduces_S2048x256_S2048 (.inl rfl) rfl) shapeCasts_S2048_S2048x1 (ix2 p (0 : Fin 1))
      = ∑ c : Fin 256, X (ix2 p c) := by
  refine (shapeCast_apply _ _ (ix2 p (0 : Fin 1)) (ix1 p) ?_).trans ?_
  · rw [Shape.rowMajor_val_one, Shape.rowMajor_val_two]; show p.val = p.val * 1 + 0; omega
  · refine (Ideal.multiReduction_add_single X 0x00000000#32 reduces_S2048x256_S2048 (.inl rfl) rfl (ix1 p)).trans ?_
    exact Finset.sum_congr rfl fun c _ => congrArg X (lift_row _ p c)

/-! ## The pre-activation, the slope and the ELU at an entry -/

/-- The pre-activation the body computes at row p: the fused contraction over the 128 concatenated inputs, as its two halves, plus the bias. -/
def zKer (x u : FVec Ideal S2048x64 .f32) (wc : FVec Ideal S128x256 .f32) (b1 : FVec Ideal S256 .f32) (p : Fin 2048) (c : Fin 256) : EReal :=
  ((∑ i : Fin 64, x (ix2 p i) * wc (ix2 (Fin.castAdd 64 i) c)) + ∑ i : Fin 64, u (ix2 p i) * wc (ix2 (Fin.natAdd 64 i) c)) + b1 (ix1 c)

theorem pay4_apply (x u : FVec Ideal S2048x64 .f32) (wc : FVec Ideal S128x256 .f32) (b1 : FVec Ideal S256 .f32) (p : Fin 2048) (c : Fin 256) :
    k0_pay4 (F := Ideal) x u wc b1 (ix2 p c) = zKer x u wc b1 p c := by
  unfold k0_pay4 zKer
  rw [addf_apply, mm_K1_apply, rowBias256, sum_split128]
  simp only [xu_left, xu_right, truncf_apply, shapeCast_self]

theorem slope_scalar (z : EReal) :
    Scalar.select (FloatOps.cmpf (F := Ideal) (φ := .f32) .ogt z (Ideal.ofBits .f32 0x00000000#32)) (Ideal.ofBits .f32 0x3F800000#32) (Ideal.exp z) = slopeKer z := by
  have hc : FloatOps.cmpf (F := Ideal) (φ := .f32) .ogt z (Ideal.ofBits .f32 0x00000000#32) = BitVec.ofBool (decide ((0 : EReal) < z)) := by
    rw [Ideal.ofBits_zero_f32]; rfl
  rw [hc, Ideal.ofBits_one_f32]
  unfold slopeKer
  by_cases h : (0 : EReal) < z
  · have hb : BitVec.ofBool (decide ((0 : EReal) < z)) = 1#1 := by simp [h]
    rw [hb, select_one, if_pos h]
  · have hb : BitVec.ofBool (decide ((0 : EReal) < z)) = 0#1 := by simp [h]
    rw [hb, select_zero, if_neg h]

theorem pay6_apply (x u : FVec Ideal S2048x64 .f32) (wc : FVec Ideal S128x256 .f32) (b1 : FVec Ideal S256 .f32) (p : Fin 2048) (c : Fin 256) :
    k0_pay6 (F := Ideal) x u wc b1 (ix2 p c) = slopeKer (zKer x u wc b1 p c) := by
  show Scalar.select (FloatOps.cmpf (F := Ideal) (φ := .f32) .ogt (k0_pay4 (F := Ideal) x u wc b1 (ix2 p c)) (Ideal.ofBits .f32 0x00000000#32)) (Ideal.ofBits .f32 0x3F800000#32)
      (Ideal.exp (k0_pay4 (F := Ideal) x u wc b1 (ix2 p c))) = _
  rw [pay4_apply]
  exact slope_scalar _

theorem elu_scalar (z : EReal) :
    Scalar.select (FloatOps.cmpf (F := Ideal) (φ := .f32) .ogt z (Ideal.ofBits .f32 0x00000000#32)) z (Ideal.exp z - Ideal.ofBits .f32 0x3F800000#32) = eluE z := by
  have hc : FloatOps.cmpf (F := Ideal) (φ := .f32) .ogt z (Ideal.ofBits .f32 0x00000000#32) = BitVec.ofBool (decide ((0 : EReal) < z)) := by
    rw [Ideal.ofBits_zero_f32]; rfl
  rw [hc, Ideal.ofBits_one_f32]
  unfold eluE
  by_cases h : (0 : EReal) < z
  · have hb : BitVec.ofBool (decide ((0 : EReal) < z)) = 1#1 := by simp [h]
    rw [hb, select_one, if_pos h]
  · have hb : BitVec.ofBool (decide ((0 : EReal) < z)) = 0#1 := by simp [h]
    rw [hb, select_zero, if_neg h]

/-- g's contraction at an entry: Σ_c elu(z[p, c]) · W2[c, j]. -/
theorem pay8_apply (x u : FVec Ideal S2048x64 .f32) (wc : FVec Ideal S128x256 .f32) (b1 : FVec Ideal S256 .f32) (w2 : FVec Ideal S256x64 .f32)
    (p : Fin 2048) (j : Fin 64) :
    k0_pay8 (F := Ideal) x u wc b1 w2 (ix2 p j) = ∑ c : Fin 256, eluE (zKer x u wc b1 p c) * w2 (ix2 c j) := by
  unfold k0_pay8 k0_pay7
  dsimp only
  rw [mm_K2_apply]
  refine Finset.sum_congr rfl fun c _ => ?_
  show Scalar.select (FloatOps.cmpf (F := Ideal) (φ := .f32) .ogt (k0_pay4 (F := Ideal) x u wc b1 (ix2 p c)) (Ideal.ofBits .f32 0x00000000#32)) (k0_pay4 (F := Ideal) x u wc b1 (ix2 p c))
      (Ideal.exp (k0_pay4 (F := Ideal) x u wc b1 (ix2 p c)) - Ideal.ofBits .f32 0x3F800000#32) * w2 (ix2 c j) = _
  rw [pay4_apply, elu_scalar]

/-- What the body stores to the first output at (p, j): u[p, j] + (Σ_c elu(z[p, c]) · W2[c, j] + b2[j]). -/
theorem payV_apply (x u : FVec Ideal S2048x64 .f32) (wc : FVec Ideal S128x256 .f32) (b1 : FVec Ideal S256 .f32) (w2 : FVec Ideal S256x64 .f32)
    (b2 : FVec Ideal S64 .f32) (p : Fin 2048) (j : Fin 64) :
    k0_pay1 (F := Ideal) u (k0_pay10 (F := Ideal) (k0_pay8 (F := Ideal) x u wc b1 w2) (k0_pay9 (F := Ideal) b2)) (ix2 p j)
      = u (ix2 p j) + ((∑ c : Fin 256, eluE (zKer x u wc b1 p c) * w2 (ix2 c j)) + b2 (ix1 j)) := by
  unfold k0_pay1 k0_pay10 k0_pay9
  dsimp only
  rw [addf_apply, addf_apply, pay8_apply, rowBias64]

/-! ## The probe in the hidden space, the first hidden vector, and one step -/

theorem pay12_apply (eps : FVec Ideal S2048x64 .f32) (w1u : FVec Ideal S64x256 .f32) (p : Fin 2048) (c : Fin 256) :
    k0_pay12 (F := Ideal) eps w1u (ix2 p c) = ∑ j : Fin 64, eps (ix2 p j) * w1u (ix2 j c) := by
  unfold k0_pay12 k0_pay11
  dsimp only
  rw [mm_K3_apply]
  simp only [truncf_apply]

theorem pay13_apply (eps : FVec Ideal S2048x64 .f32) (d : FVec Ideal S2048x256 .f32) (w2b : FVec Ideal S256x64 .bf16) (p : Fin 2048) (c : Fin 256) :
    k0_pay13 (F := Ideal) eps d w2b (ix2 p c) = (∑ j : Fin 64, eps (ix2 p j) * w2b (ix2 c j)) * d (ix2 p c) := by
  unfold k0_pay13 k0_pay11
  dsimp only
  rw [mulf_apply, mm_K4_apply]
  simp only [truncf_apply]

/-- One step of the hidden recurrence at an entry: ((s · M)[p, b]) · d[p, b]. -/
theorem step_apply (s d : FVec Ideal S2048x256 .f32) (mcb : FVec Ideal S256x256 .bf16) (p : Fin 2048) (b : Fin 256) :
    mulf (matmul K5 none (truncf .bf16 s bitsLt_bf16_f32) mcb (constant (F := Ideal) S2048x256 .f32 0x00000000#32)) d (ix2 p b)
      = (∑ a : Fin 256, s (ix2 p a) * mcb (ix2 a b)) * d (ix2 p b) := by
  rw [mulf_apply, mm_K5_apply]
  simp only [truncf_apply]

/-! ## The rows of the hidden vectors the body carries, and the series it accumulates -/

/-- The series' coefficients (−1)^{k+1}/k, k = 1 … 10, as the single-precision words the body carries (indexed from 0). -/
def coeffBitsK : ℕ → BitVec 32
  | 0 => 0x3F800000#32 | 1 => 0xBF000000#32 | 2 => 0x3EAAAAAB#32 | 3 => 0xBE800000#32 | 4 => 0x3E4CCCCD#32
  | 5 => 0xBE2AAAAB#32 | 6 => 0x3E124925#32 | 7 => 0xBE000000#32 | 8 => 0x3DE38E39#32 | _ => 0xBDCCCCCD#32

def coeffK (k : ℕ) : EReal := Ideal.ofBits .f32 (coeffBitsK k)

theorem mcb_apply (mc : FVec Ideal S256x256 .f32) (a b : Fin 256) : k0_pay14 (F := Ideal) (k0_pay3 (F := Ideal) mc) (ix2 a b) = mc (ix2 a b) := by
  unfold k0_pay14 k0_pay3
  dsimp only
  rw [truncf_apply, shapeCast_self]

/-- If s's row is the k-th hidden vector, one more step's row is the (k+1)-th. -/
theorem step_row {A : Fin 256 → Fin 64 → EReal} {B : Fin 64 → Fin 256 → EReal} {dr : Fin 256 → EReal} {e : Fin 64 → EReal}
    (s d : FVec Ideal S2048x256 .f32) (mcb : FVec Ideal S256x256 .bf16) (p : Fin 2048) (k : ℕ)
    (hs : ∀ a, (s (ix2 p a) : EReal) = kerS A B dr e k a) (hd : ∀ c, (d (ix2 p c) : EReal) = dr c) (hM : ∀ a b, (mcb (ix2 a b) : EReal) = kerM A B a b) (b : Fin 256) :
    mulf (matmul K5 none (truncf .bf16 s bitsLt_bf16_f32) mcb (constant (F := Ideal) S2048x256 .f32 0x00000000#32)) d (ix2 p b)
      = kerS A B dr e (k + 1) b := by
  rw [step_apply, hd]
  show _ = (∑ a, kerS A B dr e k a * kerM A B a b) * dr b
  simp only [hs, hM]

/-- The composite matrix the body is handed is M a b = Σ_j W2[b, j] · W1u[j, a]. -/
def CompIs (w2 : FVec Ideal S256x64 .f32) (w1u : FVec Ideal S64x256 .f32) (mc : FVec Ideal S256x256 .f32) : Prop :=
  ∀ a b : Fin 256, (mc (ix2 a b) : EReal)
    = kerM (R := EReal) (fun (c : Fin 256) (j : Fin 64) => (w2 (ix2 c j) : EReal)) (fun (j : Fin 64) (c : Fin 256) => (w1u (ix2 j c) : EReal)) a b

section Rows

variable (lp : FVec Ideal S2048x1 .f32) (eps x u : FVec Ideal S2048x64 .f32) (wc : FVec Ideal S128x256 .f32) (b1 : FVec Ideal S256 .f32)
  (w2 : FVec Ideal S256x64 .f32) (w1u : FVec Ideal S64x256 .f32) (mc : FVec Ideal S256x256 .f32) (p : Fin 2048)

local notation "𝐀" => (fun (c : Fin 256) (j : Fin 64) => (w2 (ix2 c j) : EReal))
local notation "𝐁" => (fun (j : Fin 64) (c : Fin 256) => (w1u (ix2 j c) : EReal))
local notation "𝐃" => (fun (c : Fin 256) => (slopeKer (zKer x u wc b1 p c) : EReal))
local notation "𝐄" => (fun (j : Fin 64) => (eps (ix2 p j) : EReal))
local notation "Dv" => k0_pay6 (F := Ideal) x u wc b1
local notation "W2B" => k0_pay7 (F := Ideal) w2
local notation "M3" => k0_pay3 (F := Ideal) mc
local notation "MCB" => k0_pay14 (F := Ideal) (k0_pay3 (F := Ideal) mc)
local notation "VE" => k0_pay12 (F := Ideal) eps w1u
local notation "S0" => k0_pay13 (F := Ideal) eps (k0_pay6 (F := Ideal) x u wc b1) (k0_pay7 (F := Ideal) w2)
local notation "S1" => k0_pay15 (F := Ideal) eps (k0_pay3 (F := Ideal) mc) (k0_pay6 (F := Ideal) x u wc b1) (k0_pay7 (F := Ideal) w2)
local notation "S2" => k0_pay16 (F := Ideal) eps (k0_pay3 (F := Ideal) mc) (k0_pay6 (F := Ideal) x u wc b1) (k0_pay7 (F := Ideal) w2)
local notation "S3" => k0_pay17 (F := Ideal) eps (k0_pay3 (F := Ideal) mc) (k0_pay6 (F := Ideal) x u wc b1) (k0_pay7 (F := Ideal) w2)
local notation "S4" => k0_pay19 (F := Ideal) eps (k0_pay3 (F := Ideal) mc) (k0_pay6 (F := Ideal) x u wc b1) (k0_pay7 (F := Ideal) w2)
local notation "S5" => k0_pay21 (F := Ideal) (k0_pay6 (F := Ideal) x u wc b1) (k0_pay14 (F := Ideal) (k0_pay3 (F := Ideal) mc)) (k0_pay19 (F := Ideal) eps (k0_pay3 (F := Ideal) mc) (k0_pay6 (F := Ideal) x u wc b1) (k0_pay7 (F := Ideal) w2))
local notation "S6" => k0_pay22 (F := Ideal) (k0_pay6 (F := Ideal) x u wc b1) (k0_pay14 (F := Ideal) (k0_pay3 (F := Ideal) mc)) (k0_pay19 (F := Ideal) eps (k0_pay3 (F := Ideal) mc) (k0_pay6 (F := Ideal) x u wc b1) (k0_pay7 (F := Ideal) w2))
local notation "S7" => k0_pay23 (F := Ideal) (k0_pay6 (F := Ideal) x u wc b1) (k0_pay14 (F := Ideal) (k0_pay3 (F := Ideal) mc)) (k0_pay19 (F := Ideal) eps (k0_pay3 (F := Ideal) mc) (k0_pay6 (F := Ideal) x u wc b1) (k0_pay7 (F := Ideal) w2))
local notation "S8" => k0_pay24 (F := Ideal) (k0_pay6 (F := Ideal) x u wc b1) (k0_pay14 (F := Ideal) (k0_pay3 (F := Ideal) mc)) (k0_pay19 (F := Ideal) eps (k0_pay3 (F := Ideal) mc) (k0_pay6 (F := Ideal) x u wc b1) (k0_pay7 (F := Ideal) w2))

local notation "HM" => CompIs w2 w1u mc

theorem hMcb (hM : HM) (a b : Fin 256) : MCB (ix2 a b) = kerM 𝐀 𝐁 a b := (mcb_apply mc a b).trans (hM a b)

theorem d_row (c : Fin 256) : Dv (ix2 p c) = 𝐃 c := pay6_apply x u wc b1 p c

theorem s0_row (c : Fin 256) : S0 (ix2 p c) = kerS 𝐀 𝐁 𝐃 𝐄 0 c := by
  rw [pay13_apply, pay6_apply]
  rfl

theorem s1_row (hM : HM) (c : Fin 256) : S1 (ix2 p c) = kerS 𝐀 𝐁 𝐃 𝐄 1 c :=
  step_row S0 Dv MCB p 0 (s0_row eps x u wc b1 w2 w1u p) (pay6_apply x u wc b1 p) (hMcb w2 w1u mc hM) c

theorem s2_row (hM : HM) (c : Fin 256) : S2 (ix2 p c) = kerS 𝐀 𝐁 𝐃 𝐄 2 c :=
  step_row S1 Dv MCB p 1 (s1_row eps x u wc b1 w2 w1u mc p hM) (pay6_apply x u wc b1 p) (hMcb w2 w1u mc hM) c

theorem s3_row (hM : HM) (c : Fin 256) : S3 (ix2 p c) = kerS 𝐀 𝐁 𝐃 𝐄 3 c :=
  step_row S2 Dv MCB p 2 (s2_row eps x u wc b1 w2 w1u mc p hM) (pay6_apply x u wc b1 p) (hMcb w2 w1u mc hM) c

theorem s4_row (hM : HM) (c : Fin 256) : S4 (ix2 p c) = kerS 𝐀 𝐁 𝐃 𝐄 4 c :=
  step_row S3 Dv MCB p 3 (s3_row eps x u wc b1 w2 w1u mc p hM) (pay6_apply x u wc b1 p) (hMcb w2 w1u mc hM) c

theorem s5_row (hM : HM) (c : Fin 256) : S5 (ix2 p c) = kerS 𝐀 𝐁 𝐃 𝐄 5 c :=
  step_row S4 Dv MCB p 4 (s4_row eps x u wc b1 w2 w1u mc p hM) (pay6_apply x u wc b1 p) (hMcb w2 w1u mc hM) c

theorem s6_row (hM : HM) (c : Fin 256) : S6 (ix2 p c) = kerS 𝐀 𝐁 𝐃 𝐄 6 c :=
  step_row S5 Dv MCB p 5 (s5_row eps x u wc b1 w2 w1u mc p hM) (pay6_apply x u wc b1 p) (hMcb w2 w1u mc hM) c

theorem s7_row (hM : HM) (c : Fin 256) : S7 (ix2 p c) = kerS 𝐀 𝐁 𝐃 𝐄 7 c :=
  step_row S6 Dv MCB p 6 (s6_row eps x u wc b1 w2 w1u mc p hM) (pay6_apply x u wc b1 p) (hMcb w2 w1u mc hM) c

theorem s8_row (hM : HM) (c : Fin 256) : S8 (ix2 p c) = kerS 𝐀 𝐁 𝐃 𝐄 8 c :=
  step_row S7 Dv MCB p 7 (s7_row eps x u wc b1 w2 w1u mc p hM) (pay6_apply x u wc b1 p) (hMcb w2 w1u mc hM) c

/-- The last product the body forms, s_9 ∘ (ε·B), at an entry. -/
theorem last_row (hM : HM) (c : Fin 256) :
    k0_pay26 (F := Ideal) Dv VE MCB S4 (ix2 p c) = kerS 𝐀 𝐁 𝐃 𝐄 9 c * kerVe 𝐁 𝐄 c := by
  show mulf (mulf (matmul K5 none (truncf .bf16 S8 bitsLt_bf16_f32) MCB (constant (F := Ideal) S2048x256 .f32 0x00000000#32)) Dv) VE (ix2 p c) = _
  rw [mulf_apply, step_row S8 Dv MCB p 8 (s8_row eps x u wc b1 w2 w1u mc p hM) (pay6_apply x u wc b1 p) (hMcb w2 w1u mc hM) c, pay12_apply]
  rfl

theorem ve_row (c : Fin 256) : VE (ix2 p c) = kerVe 𝐁 𝐄 c := pay12_apply eps w1u p c

/-- The first four terms, accumulated from zero. -/
theorem acc4_row (hM : HM) :
    k0_pay18 (F := Ideal) eps w1u M3 Dv W2B (ix2 p (0 : Fin 1)) = series coeffK (kerP 𝐀 𝐁 𝐃 𝐄) 4 := by
  unfold k0_pay18
  dsimp only
  simp only [addf_apply, mulf_apply, broadcast_apply]
  rw [rowsum_apply, rowsum_apply, rowsum_apply, rowsum_apply]
  simp only [mulf_apply, s0_row eps x u wc b1 w2 w1u p, s1_row eps x u wc b1 w2 w1u mc p hM, s2_row eps x u wc b1 w2 w1u mc p hM, s3_row eps x u wc b1 w2 w1u mc p hM, ve_row eps w1u p]
  show (((Ideal.ofBits .f32 0x00000000#32 + _) + _) + _) + _ = _
  rw [Ideal.ofBits_zero_f32]
  rfl

/-- Nine terms. -/
theorem acc9_row (hM : HM) :
    k0_pay25 (F := Ideal) Dv VE MCB (k0_pay18 (F := Ideal) eps w1u M3 Dv W2B) S4 (k0_pay20 (F := Ideal) eps w1u M3 Dv W2B) (ix2 p (0 : Fin 1))
      = series coeffK (kerP 𝐀 𝐁 𝐃 𝐄) 9 := by
  unfold k0_pay25 k0_pay20
  dsimp only
  simp only [addf_apply, mulf_apply, broadcast_apply]
  rw [rowsum_apply, rowsum_apply, rowsum_apply, rowsum_apply, rowsum_apply]
  simp only [mulf_apply, acc4_row eps x u wc b1 w2 w1u mc p hM, s4_row eps x u wc b1 w2 w1u mc p hM, s5_row eps x u wc b1 w2 w1u mc p hM, s6_row eps x u wc b1 w2 w1u mc p hM, s7_row eps x u wc b1 w2 w1u mc p hM, s8_row eps x u wc b1 w2 w1u mc p hM, ve_row eps w1u p]
  rfl

/-- What the body stores to the second output at row p: logpx[p, 0] minus the ten-term series. -/
theorem payL_apply (hM : HM) :
    k0_pay2 (F := Ideal) lp (k0_pay25 (F := Ideal) Dv VE MCB (k0_pay18 (F := Ideal) eps w1u M3 Dv W2B) S4 (k0_pay20 (F := Ideal) eps w1u M3 Dv W2B))
        (k0_pay26 (F := Ideal) Dv VE MCB S4) (ix2 p (0 : Fin 1))
      = lp (ix2 p (0 : Fin 1)) - series coeffK (kerP 𝐀 𝐁 𝐃 𝐄) 10 := by
  unfold k0_pay2
  dsimp only
  simp only [subf_apply, addf_apply, mulf_apply, broadcast_apply]
  rw [rowsum_apply]
  simp only [acc9_row eps x u wc b1 w2 w1u mc p hM, last_row eps x u wc b1 w2 w1u mc p hM]
  rfl

end Rows

end Cert.KerRead

end
-- ==== Proof.KerValue.lean ====
/-
  From blocks to arrays. Grid point t handles rows 2048·t … 2048·t + 2047: it reads those rows of x, u, ε and logpx,
  the whole of the weights, of the stacked first-layer matrix [W1x; W1u] and of the composite matrix (W2·W1u)ᵀ (both
  formed before the launch), and writes back those rows of the two outputs. So each output array ends as ONE
  function of the argument arrays, row by row: the first output u + (elu(z)·W2 + b2), the second logpx minus the
  ten-term series of the hidden-space recurrence at that row.
-/
import proofs.«140702_j66941360275619_2_alg».proof.Proof.Gen.KernelIdeal.Value
import proofs.«140702_j66941360275619_2_alg».proof.Proof.KerRead
import Idealize.ShloMosaic.Lib.StableHlo.Run

noncomputable section

namespace Cert.KerValue

open Cert.KernelIdeal Cert.KernelIdeal.Gen Cert.KernelIdeal.Value Cert.KerRead Cert.Spec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The two outputs as functions of the argument arrays -/

/-- The row's pre-activations from the whole arrays: z[r, c] = Σ_i x[r,i]·W1x[i,c] + Σ_i u[r,i]·W1u[i,c] + b1[c]. -/
def zArr (x u : FVec Ideal S131072x64 .f32) (W1x W1u : FVec Ideal S64x256 .f32) (b1 : FVec Ideal S256 .f32) (r : Fin 131072) (c : Fin 256) : EReal :=
  ((∑ i : Fin 64, x (ix2 r i) * W1x (ix2 i c)) + ∑ i : Fin 64, u (ix2 r i) * W1u (ix2 i c)) + b1 (ix1 c)

/-- The first computed output at an entry: v[r, j] = u[r, j] + (Σ_c elu(z[r, c])·W2[c, j] + b2[j]). -/
def GValEnt (x u : FVec Ideal S131072x64 .f32) (W1x W1u : FVec Ideal S64x256 .f32) (b1 : FVec Ideal S256 .f32)
    (W2 : FVec Ideal S256x64 .f32) (b2 : FVec Ideal S64 .f32) (r : Fin 131072) (j : Fin 64) : EReal :=
  u (ix2 r j) + ((∑ c : Fin 256, eluE (zArr x u W1x W1u b1 r c) * W2 (ix2 c j)) + b2 (ix1 j))

def GVal (x u : FVec Ideal S131072x64 .f32) (W1x W1u : FVec Ideal S64x256 .f32) (b1 : FVec Ideal S256 .f32)
    (W2 : FVec Ideal S256x64 .f32) (b2 : FVec Ideal S64 .f32) : FVec Ideal S131072x64 .f32 :=
  fun i => GValEnt x u W1x W1u b1 W2 b2 ⟨(i 0).val, (i 0).isLt⟩ ⟨(i 1).val, (i 1).isLt⟩

/-- The second computed output at a row: logpx[r, 0] minus the ten-term series of the hidden-space recurrence at row r. -/
def GLogRow (x u : FVec Ideal S131072x64 .f32) (lp : FVec Ideal S131072x1 .f32) (eps : FVec Ideal S131072x64 .f32)
    (W1x W1u : FVec Ideal S64x256 .f32) (b1 : FVec Ideal S256 .f32) (W2 : FVec Ideal S256x64 .f32) (r : Fin 131072) : EReal :=
  lp (ix2 r (0 : Fin 1))
    - series coeffK (kerP (R := EReal) (fun (c : Fin 256) (j : Fin 64) => (W2 (ix2 c j) : EReal)) (fun (j : Fin 64) (c : Fin 256) => (W1u (ix2 j c) : EReal))
        (fun c => slopeKer (zArr x u W1x W1u b1 r c)) (fun j => (eps (ix2 r j) : EReal))) 10

def GLog (x u : FVec Ideal S131072x64 .f32) (lp : FVec Ideal S131072x1 .f32) (eps : FVec Ideal S131072x64 .f32)
    (W1x W1u : FVec Ideal S64x256 .f32) (b1 : FVec Ideal S256 .f32) (W2 : FVec Ideal S256x64 .f32) : FVec Ideal S131072x1 .f32 :=
  fun i => GLogRow x u lp eps W1x W1u b1 W2 ⟨(i 0).val, (i 0).isLt⟩

/-! ## Each window's block at a point, read off its array -/

/-- The array row that row p of point t's block is. -/
def rowAt (t : Fin cfg0.N) (p : Fin 2048) : Fin 131072 :=
  ⟨t.val * 2048 + p.val, by have ht : t.val < 64 := t.isLt; have hp := p.isLt; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 0 stages rows 2048·t … of x. -/
theorem blk0_apply (c : Dev nD) (t : Fin cfg0.N) (p : Fin 2048) (j : Fin 64) :
    iblk m c 0 t (ix2 p j) = V m c main_arg0 (ix2 (rowAt t p) j) := by
  obtain ⟨e0, e1⟩ := idx0 t
  show V m c main_arg0 (((cfg0.win 0).blk t).view.emb (ix2 p j)) = _
  congr 1; funext a; apply Fin.ext
  match a with
  | ⟨0, _⟩ => show win0_0.index t (0 : Fin 2) * 2048 + 1 * p.val = t.val * 2048 + p.val; omega
  | ⟨1, _⟩ => show win0_0.index t (1 : Fin 2) * 64 + 1 * j.val = j.val; omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 1 stages the same rows of u. -/
theorem blk1_apply (c : Dev nD) (t : Fin cfg0.N) (p : Fin 2048) (j : Fin 64) :
    iblk m c 1 t (ix2 p j) = V m c main_arg1 (ix2 (rowAt t p) j) := by
  obtain ⟨e0, e1⟩ := idx1 t
  show V m c main_arg1 (((cfg0.win 1).blk t).view.emb (ix2 p j)) = _
  congr 1; funext a; apply Fin.ext
  match a with
  | ⟨0, _⟩ => show win0_1.index t (0 : Fin 2) * 2048 + 1 * p.val = t.val * 2048 + p.val; omega
  | ⟨1, _⟩ => show win0_1.index t (1 : Fin 2) * 64 + 1 * j.val = j.val; omega

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 2 stages the same rows of the probe ε. -/
theorem blk2_apply (c : Dev nD) (t : Fin cfg0.N) (p : Fin 2048) (j : Fin 64) :
    iblk m c 2 t (ix2 p j) = V m c main_arg3 (ix2 (rowAt t p) j) := by
  obtain ⟨e0, e1⟩ := idx2 t
  show V m c main_arg3 (((cfg0.win 2).blk t).view.emb (ix2 p j)) = _
  congr 1; funext a; apply Fin.ext
  match a with
  | ⟨0, _⟩ => show win0_2.index t (0 : Fin 2) * 2048 + 1 * p.val = t.val * 2048 + p.val; omega
  | ⟨1, _⟩ => show win0_2.index t (1 : Fin 2) * 64 + 1 * j.val = j.val; omega

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Window 3 stages the same rows of logpx. -/
theorem blk3_apply (c : Dev nD) (t : Fin cfg0.N) (p : Fin 2048) (j : Fin 1) :
    iblk m c 3 t (ix2 p j) = V m c main_arg2 (ix2 (rowAt t p) j) := by
  obtain ⟨e0, e1⟩ := idx3 t
  show V m c main_arg2 (((cfg0.win 3).blk t).view.emb (ix2 p j)) = _
  congr 1; funext a; apply Fin.ext
  match a with
  | ⟨0, _⟩ => show win0_3.index t (0 : Fin 2) * 2048 + 1 * p.val = t.val * 2048 + p.val; omega
  | ⟨1, _⟩ => show win0_3.index t (1 : Fin 2) * 1 + 1 * j.val = j.val; omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4 stages the whole stacked first-layer matrix. -/
theorem blk4_apply (c : Dev nD) (t : Fin cfg0.N) (a : Fin 128) (b : Fin 256) :
    iblk m c 4 t (ix2 a b) = V m c main_v0 (ix2 a b) := by
  obtain ⟨e0, e1⟩ := idx4 t
  show V m c main_v0 (((cfg0.win 4).blk t).view.emb (ix2 a b)) = _
  congr 1; funext ax; apply Fin.ext
  match ax with
  | ⟨0, _⟩ => show win0_4.index t (0 : Fin 2) * 128 + 1 * a.val = a.val; omega
  | ⟨1, _⟩ => show win0_4.index t (1 : Fin 2) * 256 + 1 * b.val = b.val; omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5 stages the whole of W1u. -/
theorem blk5_apply (c : Dev nD) (t : Fin cfg0.N) (a : Fin 64) (b : Fin 256) :
    iblk m c 5 t (ix2 a b) = V m c main_arg5 (ix2 a b) := by
  obtain ⟨e0, e1⟩ := idx5 t
  show V m c main_arg5 (((cfg0.win 5).blk t).view.emb (ix2 a b)) = _
  congr 1; funext ax; apply Fin.ext
  match ax with
  | ⟨0, _⟩ => show win0_5.index t (0 : Fin 2) * 64 + 1 * a.val = a.val; omega
  | ⟨1, _⟩ => show win0_5.index t (1 : Fin 2) * 256 + 1 * b.val = b.val; omega

theorem idx6 : ∀ t : Fin cfg0.N, win0_6.index t (0 : Fin 1) = 0 :=
  (by decide +kernel : ∀ t : Fin grid0.N, win0_6.index t (0 : Fin 1) = 0)

/-- Window 6 stages the whole of b1. -/
theorem blk6_apply (c : Dev nD) (t : Fin cfg0.N) (a : Fin 256) :
    iblk m c 6 t (ix1 a) = V m c main_arg6 (ix1 a) := by
  have e0 := idx6 t
  show V m c main_arg6 (((cfg0.win 6).blk t).view.emb (ix1 a)) = _
  congr 1; funext ax; apply Fin.ext
  match ax with
  | ⟨0, _⟩ => show win0_6.index t (0 : Fin 1) * 256 + 1 * a.val = a.val; omega

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7 stages the whole of W2. -/
theorem blk7_apply (c : Dev nD) (t : Fin cfg0.N) (a : Fin 256) (b : Fin 64) :
    iblk m c 7 t (ix2 a b) = V m c main_arg7 (ix2 a b) := by
  obtain ⟨e0, e1⟩ := idx7 t
  show V m c main_arg7 (((cfg0.win 7).blk t).view.emb (ix2 a b)) = _
  congr 1; funext ax; apply Fin.ext
  match ax with
  | ⟨0, _⟩ => show win0_7.index t (0 : Fin 2) * 256 + 1 * a.val = a.val; omega
  | ⟨1, _⟩ => show win0_7.index t (1 : Fin 2) * 64 + 1 * b.val = b.val; omega

theorem idx8 : ∀ t : Fin cfg0.N, win0_8.index t (0 : Fin 1) = 0 :=
  (by decide +kernel : ∀ t : Fin grid0.N, win0_8.index t (0 : Fin 1) = 0)

/-- Window 8 stages the whole of b2. -/
theorem blk8_apply (c : Dev nD) (t : Fin cfg0.N) (a : Fin 64) :
    iblk m c 8 t (ix1 a) = V m c main_arg8 (ix1 a) := by
  have e0 := idx8 t
  show V m c main_arg8 (((cfg0.win 8).blk t).view.emb (ix1 a)) = _
  congr 1; funext ax; apply Fin.ext
  match ax with
  | ⟨0, _⟩ => show win0_8.index t (0 : Fin 1) * 64 + 1 * a.val = a.val; omega

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9 stages the whole composite matrix. -/
theorem blk9_apply (c : Dev nD) (t : Fin cfg0.N) (a : Fin 256) (b : Fin 256) :
    iblk m c 9 t (ix2 a b) = V m c main_v2 (ix2 a b) := by
  obtain ⟨e0, e1⟩ := idx9 t
  show V m c main_v2 (((cfg0.win 9).blk t).view.emb (ix2 a b)) = _
  congr 1; funext ax; apply Fin.ext
  match ax with
  | ⟨0, _⟩ => show win0_9.index t (0 : Fin 2) * 256 + 1 * a.val = a.val; omega
  | ⟨1, _⟩ => show win0_9.index t (1 : Fin 2) * 256 + 1 * b.val = b.val; omega

/-! ## The two operands formed before the launch -/

/-- The stacked matrix is W1x over W1u. -/
theorem V_stack (c : Dev nD) :
    (V m c main_v0 : S128x256.Idx → EReal)
      = concatenate S128x256 0 [⟨S64x256, V m c main_arg4⟩, ⟨S64x256, V m c main_arg5⟩] concatenates_S64x256_S64x256_S128x256_d0 := by
  dsimp only [Gen.V, Gen.hostOps0]
  after_results

/-- The composite matrix is (W2 · W1u) transposed. -/
theorem V_comp (c : Dev nD) :
    (V m c main_v2 : S256x256.Idx → EReal)
      = transpose S256x256 [1, 0] (Host.dotGeneral (F := Ideal) (φ₁ := .f32) (φ₂ := .f32) dot_S256x64_S64x256_S256x256_1_0_0_1_n_n (some .fp32) (V m c main_arg7) (V m c main_arg5)) transposes_S256x256_S256x256_1_0 := by
  dsimp only [Gen.V, Gen.hostOps0]
  after_results

/-! ## The operands formed before the launch, at an entry -/

abbrev H1 := dot_S256x64_S64x256_S256x256_1_0_0_1_n_n

theorem lhs_H1 (p q : Fin 256) (i : Fin 64) :
    H1.lhsIdx (ix2 p q) ((contrEquiv1 H1 64 rfl rfl).symm i) = ix2 p i := by
  funext a; apply Fin.ext
  match a with
  | ⟨0, _⟩ => rfl
  | ⟨1, _⟩ => exact (H1.lhsIdx_val_of_single rfl _ _).trans (contrEquiv1_symm_val H1 64 rfl rfl i)

theorem rhs_H1 (p q : Fin 256) (i : Fin 64) :
    H1.rhsIdx (ix2 p q) ((contrEquiv1 H1 64 rfl rfl).symm i) = ix2 i q := by
  funext a; apply Fin.ext
  match a with
  | ⟨0, _⟩ => exact (H1.rhsIdx_val_of_single rfl _ _).trans (contrEquiv1_symm_val H1 64 rfl rfl i)
  | ⟨1, _⟩ => rfl

/-- (W2 · W1u)[b, a] = Σ_j W2[b, j] · W1u[j, a]. -/
theorem dot_H1_apply (l : FVec Ideal S256x64 .f32) (r : FVec Ideal S64x256 .f32) (p q : Fin 256) :
    Host.dotGeneral H1 (some .fp32) l r (ix2 p q) = ∑ i : Fin 64, l (ix2 p i) * r (ix2 i q) := by
  simp only [Host.dotGeneral]
  rw [Ideal.dotGeneral_apply, ← Equiv.sum_comp (contrEquiv1 H1 64 rfl rfl).symm]
  simp only [lhs_H1, rhs_H1]

/-- The stacked matrix's first 64 rows are W1x's … -/
theorem stack_top (c : Dev nD) (i : Fin 64) (q : Fin 256) :
    (V m c main_v0 : S128x256.Idx → EReal) (ix2 (Fin.castAdd 64 i) q) = (V m c main_arg4 : S64x256.Idx → EReal) (ix2 i q) :=
  (congrFun (V_stack m c) (ix2 (Fin.castAdd 64 i) q)).trans
    (concatenate_pair_apply_left (t := S128x256) 0 _ _ concatenates_S64x256_S64x256_S128x256_d0 (ix2 (Fin.castAdd 64 i) q) rfl (ix2 i q)
      (fun b => match b with | ⟨0, _⟩ => rfl | ⟨1, _⟩ => rfl))

/-- … and its last 64 are W1u's. -/
theorem stack_bot (c : Dev nD) (i : Fin 64) (q : Fin 256) :
    (V m c main_v0 : S128x256.Idx → EReal) (ix2 (Fin.natAdd 64 i) q) = (V m c main_arg5 : S64x256.Idx → EReal) (ix2 i q) :=
  (congrFun (V_stack m c) (ix2 (Fin.natAdd 64 i) q)).trans
    (concatenate_pair_apply_right (t := S128x256) 0 _ _ concatenates_S64x256_S64x256_S128x256_d0 (ix2 (Fin.natAdd 64 i) q) rfl rfl (ix2 i q)
      (fun b => match b with | ⟨0, _⟩ => fun h => absurd rfl h | ⟨1, _⟩ => fun _ => rfl)
      (by show i.val + 64 = 64 + i.val; omega))

/-- The composite matrix at (a, b) is Σ_j W2[b, j] · W1u[j, a]. -/
theorem comp_apply (c : Dev nD) (a b : Fin 256) :
    (V m c main_v2 : S256x256.Idx → EReal) (ix2 a b)
      = kerM (R := EReal) (fun (c' : Fin 256) (j : Fin 64) => ((V m c main_arg7 : S256x64.Idx → EReal) (ix2 c' j)))
          (fun (j : Fin 64) (c' : Fin 256) => ((V m c main_arg5 : S64x256.Idx → EReal) (ix2 j c'))) a b :=
  (congrFun (V_comp m c) (ix2 a b)).trans
    ((transpose_ix2_apply _ transposes_S256x256_S256x256_1_0 a b).trans (dot_H1_apply _ _ b a))

/-! ## What each point writes back -/

theorem hz2 : (![0, 0] : Fin 2 → Nat) = fun _ => 0 := funext fun a => by fin_cases a <;> rfl
theorem hz1 : (![0] : Fin 1 → Nat) = fun _ => 0 := funext fun a => by fin_cases a <;> rfl

/-- The block's pre-activations are the array's at the block's rows. -/
theorem z_blocks (c : Dev nD) (t : Fin cfg0.N) (p : Fin 2048) (q : Fin 256) :
    zKer (iblk m c 0 t) (iblk m c 1 t) (iblk m c 4 t) (iblk m c 6 t) p q
      = zArr (V m c main_arg0) (V m c main_arg1) (V m c main_arg4) (V m c main_arg5) (V m c main_arg6) (rowAt t p) q := by
  unfold zKer zArr
  simp only [blk0_apply m c t, blk1_apply m c t, blk4_apply m c t, blk6_apply m c t, stack_top m c, stack_bot m c]

theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- Point t writes back rows 2048·t … of the first output's function. -/
theorem flushed10_eq (c : Dev nD) (t : Fin cfg0.N) :
    (dats m 0 c).flushed 10 t = ((cfg0.win 10).blk t).view.read (Elt Ideal)
      (GVal (V m c main_arg0) (V m c main_arg1) (V m c main_arg4) (V m c main_arg5) (V m c main_arg6) (V m c main_arg7) (V m c main_arg8)) := by
  show (cfg0.win 10).cut (grid0.coords t) ((dats m 0 c).after 10 t) = _
  rw [after0_10]
  unfold out0_10
  rw [View.canon_unit_zero hz2]
  simp only [View.ld_unit_zero (S := S2048x64) hz2, View.ld_unit_zero (S := S128x256) hz2, View.ld_unit_zero (S := S256) hz1,
    View.ld_unit_zero (S := S256x64) hz2, View.ld_unit_zero (S := S64) hz1]
  funext y
  obtain ⟨p, j, rfl⟩ : ∃ (p : Fin 2048) (j : Fin 64), y = ix2 p j := ⟨y 0, y 1, eq_ix2 y⟩
  obtain ⟨e0, e1⟩ := idx10 t
  refine (payV_apply (iblk m c 0 t) (iblk m c 1 t) (iblk m c 4 t) (iblk m c 6 t) (iblk m c 7 t) (iblk m c 8 t) p j).trans ?_
  have hrow : (⟨((((cfg0.win 10).blk t).view.emb (ix2 p j)) 0).val, ((((cfg0.win 10).blk t).view.emb (ix2 p j)) 0).isLt⟩ : Fin 131072) = rowAt t p :=
    Fin.ext (by show win0_10.index t (0 : Fin 2) * 2048 + 1 * p.val = t.val * 2048 + p.val; omega)
  have hcol : (⟨((((cfg0.win 10).blk t).view.emb (ix2 p j)) 1).val, ((((cfg0.win 10).blk t).view.emb (ix2 p j)) 1).isLt⟩ : Fin 64) = j :=
    Fin.ext (by show win0_10.index t (1 : Fin 2) * 64 + 1 * j.val = j.val; omega)
  refine Eq.trans ?_ (congrArg₂ (GValEnt (V m c main_arg0) (V m c main_arg1) (V m c main_arg4) (V m c main_arg5) (V m c main_arg6) (V m c main_arg7) (V m c main_arg8)) hrow hcol).symm
  unfold GValEnt
  simp only [blk1_apply m c t, blk7_apply m c t, blk8_apply m c t, z_blocks m c t]

/-- Point t writes back rows 2048·t … of the second output's function. -/
theorem flushed11_eq (c : Dev nD) (t : Fin cfg0.N) :
    (dats m 0 c).flushed 11 t = ((cfg0.win 11).blk t).view.read (Elt Ideal)
      (GLog (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11]
  unfold out0_11
  rw [View.canon_unit_zero hz2]
  simp only [View.ld_unit_zero (S := S2048x64) hz2, View.ld_unit_zero (S := S2048x1) hz2, View.ld_unit_zero (S := S128x256) hz2,
    View.ld_unit_zero (S := S64x256) hz2, View.ld_unit_zero (S := S256) hz1, View.ld_unit_zero (S := S256x64) hz2, View.ld_unit_zero (S := S256x256) hz2]
  funext y
  obtain ⟨p, q, rfl⟩ : ∃ (p : Fin 2048) (q : Fin 1), y = ix2 p q := ⟨y 0, y 1, eq_ix2 y⟩
  obtain rfl : q = 0 := Subsingleton.elim _ _
  obtain ⟨e0, e1⟩ := idx11 t
  have hM : ∀ a b : Fin 256, (iblk m c 9 t (ix2 a b) : EReal)
      = kerM (R := EReal) (fun (c' : Fin 256) (j : Fin 64) => (iblk m c 7 t (ix2 c' j) : EReal)) (fun (j : Fin 64) (c' : Fin 256) => (iblk m c 5 t (ix2 j c') : EReal)) a b := by
    intro a b
    rw [blk9_apply, comp_apply]
    unfold kerM
    simp only [blk7_apply m c t, blk5_apply m c t]
  refine (payL_apply (iblk m c 3 t) (iblk m c 2 t) (iblk m c 0 t) (iblk m c 1 t) (iblk m c 4 t) (iblk m c 6 t) (iblk m c 7 t) (iblk m c 5 t) (iblk m c 9 t) p hM).trans ?_
  have hrow : (⟨((((cfg0.win 11).blk t).view.emb (ix2 p (0 : Fin 1))) 0).val, ((((cfg0.win 11).blk t).view.emb (ix2 p (0 : Fin 1))) 0).isLt⟩ : Fin 131072) = rowAt t p :=
    Fin.ext (by show win0_11.index t (0 : Fin 2) * 2048 + 1 * p.val = t.val * 2048 + p.val; omega)
  refine Eq.trans ?_ (congrArg (GLogRow (V m c main_arg0) (V m c main_arg1) (V m c main_arg2) (V m c main_arg3) (V m c main_arg4) (V m c main_arg5) (V m c main_arg6) (V m c main_arg7)) hrow).symm
  unfold GLogRow
  simp only [blk3_apply m c t, blk2_apply m c t, blk7_apply m c t, blk5_apply m c t, z_blocks m c t]

/-! ## The blocks tile the arrays -/

theorem mem_blk10 (t : Fin cfg0.N) (i : S131072x64.Idx) :
    i ∈ ((cfg0.win 10).blk t).view.set ↔ ∀ a : Fin 2, win0_10.index t a * S2048x64.size a ≤ (i a).val ∧ (i a).val < win0_10.index t a * S2048x64.size a + S2048x64.size a := by
  show i ∈ ((View.whole main_v3_0).slice (win0_10.rect t)).set ↔ _
  rw [View.set_slice_whole, Rect.mem_set_unit]
  exact Iff.rfl

theorem mem_blk11 (t : Fin cfg0.N) (i : S131072x1.Idx) :
    i ∈ ((cfg0.win 11).blk t).view.set ↔ ∀ a : Fin 2, win0_11.index t a * S2048x1.size a ≤ (i a).val ∧ (i a).val < win0_11.index t a * S2048x1.size a + S2048x1.size a := by
  show i ∈ ((View.whole main_v3_1).slice (win0_11.rect t)).set ↔ _
  rw [View.set_slice_whole, Rect.mem_set_unit]
  exact Iff.rfl

/-- Row r lies in the block of point r / 2048. -/
theorem cover10 (i : S131072x64.Idx) : ∃ t : Fin cfg0.N, (cfg0.win 10).flush t = true ∧ i ∈ ((cfg0.win 10).blk t).view.set := by
  have hi0 : (i 0).val < 131072 := (i 0).isLt
  have hi1 : (i 1).val < 64 := (i 1).isLt
  have ht : (i 0).val / 2048 < 64 := by omega
  refine ⟨⟨(i 0).val / 2048, ht⟩, flush0_10 _, ?_⟩
  rw [mem_blk10]
  obtain ⟨e0, e1⟩ := idx10 ⟨(i 0).val / 2048, ht⟩
  intro a
  match a with
  | ⟨0, _⟩ =>
    show win0_10.index ⟨(i 0).val / 2048, ht⟩ (0 : Fin 2) * 2048 ≤ (i 0).val ∧ (i 0).val < win0_10.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_10.index ⟨(i 0).val / 2048, ht⟩ (1 : Fin 2) * 64 ≤ (i 1).val ∧ (i 1).val < win0_10.index ⟨(i 0).val / 2048, ht⟩ (1 : Fin 2) * 64 + 64
    rw [e1]; omega

theorem cover11 (i : S131072x1.Idx) : ∃ t : Fin cfg0.N, (cfg0.win 11).flush t = true ∧ i ∈ ((cfg0.win 11).blk t).view.set := by
  have hi0 : (i 0).val < 131072 := (i 0).isLt
  have hi1 : (i 1).val < 1 := (i 1).isLt
  have ht : (i 0).val / 2048 < 64 := by omega
  refine ⟨⟨(i 0).val / 2048, ht⟩, flush0_11 _, ?_⟩
  rw [mem_blk11]
  obtain ⟨e0, e1⟩ := idx11 ⟨(i 0).val / 2048, ht⟩
  intro a
  match a with
  | ⟨0, _⟩ =>
    show win0_11.index ⟨(i 0).val / 2048, ht⟩ (0 : Fin 2) * 2048 ≤ (i 0).val ∧ (i 0).val < win0_11.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_11.index ⟨(i 0).val / 2048, ht⟩ (1 : Fin 2) * 1 ≤ (i 1).val ∧ (i 1).val < win0_11.index ⟨(i 0).val / 2048, ht⟩ (1 : Fin 2) * 1 + 1
    rw [e1]; omega

/-! ## The arrays after the run, and the run re-posted -/

theorem final10 (c : Dev nD) :
    (dats m 0 c).arrAt 10 cfg0.N = GVal (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  rw [(dats m 0 c).arrAt_eq_of_cover 10 _ (fun t _ => flushed10_eq m c t) cover10]
  rw [V_main_arg0 m c, V_main_arg1 m c, V_main_arg4 m c, V_main_arg5 m c, V_main_arg6 m c, V_main_arg7 m c, V_main_arg8 m c]

theorem final11 (c : Dev nD) :
    (dats m 0 c).arrAt 11 cfg0.N = GLog (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [(dats m 0 c).arrAt_eq_of_cover 11 _ (fun t _ => flushed11_eq m c t) cover11]
  rw [V_main_arg0 m c, V_main_arg1 m c, V_main_arg2 m c, V_main_arg3 m c, V_main_arg4 m c, V_main_arg5 m c, V_main_arg6 m c, V_main_arg7 m c]

/-- The kernel's run with both computed outputs at their functions of the argument arrays, the arguments unchanged. -/
theorem run : θ_run defs (onTc (τ := τ) (main (F := Ideal))) ⟨m, fun _ => 0, ρ⟩ fun r => ∀ c : Dev nD,
      r.2.mem ((c : Thread nD τ).loc main_v3_0) = GVal (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v3_1) = GLog (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final10 m c), (h c).2.1.trans (final11 m c), (h c).2.2⟩) (run_blocks m ρ)

end Cert.KerValue

end
-- ==== Proof.Bridge.lean ====
/-
  The two programs compute the same arrays. The first computed output needs no hypothesis: both sides are
  u + (elu(z)·W2 + b2) with the same pre-activation z (the kernel's fused contraction over the concatenated inputs is
  the reference's two contractions added). The second needs every input entry to be a real number: then z is real, the
  two spellings of the ELU's slope agree and are real, and the kernel's hidden-space inner products are the reference's
  cotangent inner products term by term (Spec.kerP_eq_refQ), so the two ten-term series are one.
-/
import proofs.«140702_j66941360275619_2_alg».proof.Proof.RefRead
import proofs.«140702_j66941360275619_2_alg».proof.Proof.KerValue

noncomputable section

namespace Cert.Bridge

open Idealize.ShloMosaic Idealize.ShloMosaic.ValueIdx Cert.KernelIdeal Cert.Spec

/-- A finite sum of products of real numbers is a real number. -/
theorem real_sum_mul {α : Type} [Fintype α] (f g : α → EReal) (hf : ∀ i, ∃ r : ℝ, f i = (r : EReal)) (hg : ∀ i, ∃ r : ℝ, g i = (r : EReal)) :
    ∃ r : ℝ, ∑ i, f i * g i = (r : EReal) := by
  choose f' hf' using hf
  choose g' hg' using hg
  exact ⟨∑ i, f' i * g' i, by simp only [hf', hg', ← EReal.coe_mul, ← coe_sum]⟩

theorem real_add {a b : EReal} (ha : ∃ r : ℝ, a = (r : EReal)) (hb : ∃ r : ℝ, b = (r : EReal)) : ∃ r : ℝ, a + b = (r : EReal) := by
  obtain ⟨a', rfl⟩ := ha
  obtain ⟨b', rfl⟩ := hb
  exact ⟨a' + b', (EReal.coe_add a' b').symm⟩

/-- The two programs carry the same coefficient words. -/
theorem coeffK_eq : ∀ k : ℕ, Cert.KerRead.coeffK k = Cert.RefRead.coeff k
  | 0 => rfl | 1 => rfl | 2 => rfl | 3 => rfl | 4 => rfl | 5 => rfl | 6 => rfl | 7 => rfl | 8 => rfl | 9 => rfl
  | (_ + 10) => rfl

/-- The first computed output: the same function on both sides. -/
theorem GVal_eq (x u : FVec Ideal S131072x64 .f32) (W1x W1u : FVec Ideal S64x256 .f32) (b1 : FVec Ideal S256 .f32)
    (W2 : FVec Ideal S256x64 .f32) (b2 : FVec Ideal S64 .f32) :
    Cert.KerValue.GVal x u W1x W1u b1 W2 b2 = Cert.RefStages.outV x u W1x W1u b1 W2 b2 := by
  funext i
  obtain ⟨r, j, rfl⟩ : ∃ (r : Fin 131072) (j : Fin 64), i = ix2 r j := ⟨i 0, i 1, eq_ix2 i⟩
  rw [Cert.RefRead.outV_apply]
  rfl

/-- The second computed output: the same function on both sides when every input entry is a real number. -/
theorem GLog_eq (x u : FVec Ideal S131072x64 .f32) (lp : FVec Ideal S131072x1 .f32) (eps : FVec Ideal S131072x64 .f32)
    (W1x W1u : FVec Ideal S64x256 .f32) (b1 : FVec Ideal S256 .f32) (W2 : FVec Ideal S256x64 .f32)
    (hx : ∀ i, ∃ r : ℝ, x i = (r : EReal)) (hu : ∀ i, ∃ r : ℝ, u i = (r : EReal)) (heps : ∀ i, ∃ r : ℝ, eps i = (r : EReal))
    (hW1x : ∀ i, ∃ r : ℝ, W1x i = (r : EReal)) (hW1u : ∀ i, ∃ r : ℝ, W1u i = (r : EReal)) (hb1 : ∀ i, ∃ r : ℝ, b1 i = (r : EReal))
    (hW2 : ∀ i, ∃ r : ℝ, W2 i = (r : EReal)) :
    Cert.KerValue.GLog x u lp eps W1x W1u b1 W2 = Cert.RefStages.outL x u lp eps W1x W1u b1 W2 := by
  funext i
  obtain ⟨r, q, rfl⟩ : ∃ (r : Fin 131072) (q : Fin 1), i = ix2 r q := ⟨i 0, i 1, eq_ix2 i⟩
  obtain rfl : q = 0 := Subsingleton.elim _ _
  rw [Cert.RefRead.outL_apply]
  have hz : ∀ c, ∃ z : ℝ, Cert.RefRead.zRow x u W1x W1u b1 r c = (z : EReal) := fun c =>
    real_add (real_add (real_sum_mul _ _ (fun i => hx _) (fun i => hW1x _)) (real_sum_mul _ _ (fun i => hu _) (fun i => hW1u _))) (hb1 _)
  have hd : (fun c => slopeRef (Cert.RefRead.zRow x u W1x W1u b1 r c)) = (fun c => slopeKer (Cert.RefRead.zRow x u W1x W1u b1 r c)) :=
    funext fun c => by obtain ⟨z, hz'⟩ := hz c; rw [hz']; exact (slope_real z).1
  rw [hd, ← (funext coeffK_eq : Cert.KerRead.coeffK = Cert.RefRead.coeff)]
  show lp (ix2 r (0 : Fin 1)) - series Cert.KerRead.coeffK (kerP (R := EReal) (fun (c : Fin 256) (j : Fin 64) => (W2 (ix2 c j) : EReal))
      (fun (j : Fin 64) (c : Fin 256) => (W1u (ix2 j c) : EReal)) (fun c => slopeKer (Cert.RefRead.zRow x u W1x W1u b1 r c)) (fun j => (eps (ix2 r j) : EReal))) 10 = _
  congr 1
  exact series_congr _ _ _ (fun k => kerP_eq_refQ _ _ _ _ (fun c j => hW2 _) (fun j c => hW1u _)
    (fun c => by obtain ⟨z, hz'⟩ := hz c; rw [hz']; exact (slope_real z).2) (fun j => heps _) k) 10

end Cert.Bridge

end
-- ==== Proof.lean ====
/-
  A residual block with a Hutchinson / power-series log-determinant estimate, computed two ways.

  Both programs return x unchanged, v = u + g with g = elu(x·W1x + u·W1u + b1)·W2 + b2, and
  logpx − Σ_{k=1..10} (−1)^{k+1}/k · ⟨w_k, ε⟩, where w_0 = ε is the probe and w_k = w_{k-1}·J is the k-fold
  vector–Jacobian product with J = ∂g/∂u = W1u · diag(elu'(z)) · W2 at each row. The reference forms every w_k in
  the input space (one product with W2ᵀ, the ELU's slope, one product with W1uᵀ per step). The kernel handles
  2048 rows per grid point and never forms w_k: it carries s_k = (w_k·W2ᵀ)∘elu'(z) in the hidden space, advanced by
  the composite matrix (W2·W1u)ᵀ formed once before the launch, and takes ⟨s_{k-1}, ε·W1u⟩ = ⟨w_k, ε⟩. It also fuses
  the two first-layer products into one over the concatenated inputs and writes the ELU's slope as exp z where the
  reference's derivative writes (exp z − 1) + 1.

  At the ideal instance a float is an extended real and every operation is exact. The first computed result agrees
  outright (a sum over 128 split in two; a product by the constant one). The second rests on exchanging two finite
  sums and on distributivity, which hold for real numbers; the precondition (every input entry finite) supplies
  that: the pre-activations are then real, the two spellings of the slope coincide and are real, and the series
  agree term by term. The coefficients are the same ten single-precision words in both programs and are never evaluated.

  The frames of the word-level kernel and of its idealization are the generated ones; the reference's is its run,
  written out as a straight line of host operations, with the results dropped. The idealization rewrote nothing,
  so the sanctioned-idealization claim is trivial.
-/
import proofs.«140702_j66941360275619_2_alg».proof.Defs
import proofs.«140702_j66941360275619_2_alg».proof.Proof.Gen.Kernel
import proofs.«140702_j66941360275619_2_alg».proof.Proof.Gen.Kernel.Skeleton
import proofs.«140702_j66941360275619_2_alg».proof.Proof.Gen.Kernel.Launch
import proofs.«140702_j66941360275619_2_alg».proof.Proof.Gen.Kernel.Points
import proofs.«140702_j66941360275619_2_alg».proof.Proof.Gen.Kernel.Frame
import proofs.«140702_j66941360275619_2_alg».proof.Proof.Gen.KernelIdeal
import proofs.«140702_j66941360275619_2_alg».proof.Proof.Gen.KernelIdeal.Skeleton
import proofs.«140702_j66941360275619_2_alg».proof.Proof.Gen.KernelIdeal.Launch
import proofs.«140702_j66941360275619_2_alg».proof.Proof.Gen.KernelIdeal.Points
import proofs.«140702_j66941360275619_2_alg».proof.Proof.Gen.KernelIdeal.Frame
import proofs.«140702_j66941360275619_2_alg».proof.Proof.Gen.KernelIdeal.Value
import proofs.«140702_j66941360275619_2_alg».proof.Proof.Gen.ReferenceIdeal
import proofs.«140702_j66941360275619_2_alg».proof.Proof.Gen.Pre_finite_inputs
import proofs.«140702_j66941360275619_2_alg».proof.Proof.FiniteInputs
import proofs.«140702_j66941360275619_2_alg».proof.Proof.RefRun
import proofs.«140702_j66941360275619_2_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the two computed results dropped. -/
theorem frame_ri : Cert.frame_ReferenceIdeal := fun m ρ _ =>
  (θ_run Cert.ReferenceIdeal.defs _ _).mono (fun _ h c => (h c).2.2) (Cert.RefRun.run (F := Ideal) m ρ)

/-- From memories agreeing on the arguments, with every input entry finite, both programs end with x, u + g and
    logpx minus the ten-term series, entry by entry the same extended reals. -/
theorem algebraic : Cert.algebraic_KernelIdeal_ReferenceIdeal := by
  intro m ρ m' ρ' hpre hagree
  refine ⟨fun c => (m ((c.tc : Thread Cert.KernelIdeal.nD Cert.KernelIdeal.τ).loc Cert.KernelIdeal.main_arg0)),
    fun c => Cert.RefStages.outV (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.RefStages.outL (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · refine (θ_run Cert.KernelIdeal.defs _ _).mono (fun r h c => ?_) (Cert.KerValue.run m ρ)
    obtain ⟨h0, h1, _, h3, h4, h5, h6, h7, _⟩ := Cert.FiniteInputs.of_pre _ _ _ _ _ _ _ _ _ (hpre c)
    obtain ⟨hv, hl, hk⟩ := h c
    exact ⟨hk.1, hv.trans (Cert.Bridge.GVal_eq _ _ _ _ _ _ _), hl.trans (Cert.Bridge.GLog_eq _ _ _ _ _ _ _ _ h0 h1 h3 h4 h5 h6 h7), hk⟩
  · refine (θ_run Cert.ReferenceIdeal.defs _ _).mono (fun r h c => ?_) (Cert.RefRun.run (F := Ideal) m' ρ')
    obtain ⟨hv, hl, hk⟩ := h c
    obtain ⟨a0, a1, a2, a3, a4, a5, a6, a7, a8⟩ := hagree c
    refine ⟨hk.1.trans a0, ?_, ?_, hk⟩
    · rw [hv, a0, a1, a4, a5, a6, a7, a8]
    · rw [hl, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
